-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x4096x256 : Shape := ⟨3, ![64, 4096, 256]⟩
abbrev S_ : Shape := ⟨0, ![]⟩

class Facts : Prop where
  bcast_S_S64x4096x256 : S_.BroadcastsInDim S64x4096x256 (![] : Fin 0 → Fin S64x4096x256.rank)
  reducesTo_S64x4096x256_S_d0_1_2 : S64x4096x256.ReducesTo [0, 1, 2] S_
  h_S_ : 0 < S_.numel

variable [Facts]

def fn {F : FTy → Type} [FloatOps F] (main_arg0 : FVec F S64x4096x256 .f32) : IVec S_ 1 :=
  let main_v0 : FVec F S64x4096x256 .f32 := Host.absf main_arg0
  let main_cst : FVec F S_ .f32 := constant S_ .f32 0x7F800000#32
  let main_v1 : FVec F S64x4096x256 .f32 := broadcastInDim S64x4096x256 ![] bcast_S_S64x4096x256 main_cst
  let main_v2 : IVec S64x4096x256 1 := cmpf .olt main_v0 main_v1
  let main_c : IVec S_ 1 := constantI S_ 1 1#1
  let main_v3 : IVec S_ 1 := (fun x v => Host.reduce IntOp.andi x v reducesTo_S64x4096x256_S_d0_1_2 h_S_) main_v2 main_c
  main_v3
-- ==== Kernel.lean ====
abbrev S64x4096x256 : Shape := ⟨3, ![64, 4096, 256]⟩
abbrev S64x256x256 : Shape := ⟨3, ![64, 256, 256]⟩
abbrev S1x4096x256 : Shape := ⟨3, ![1, 4096, 256]⟩
abbrev S1x256x256 : Shape := ⟨3, ![1, 256, 256]⟩
abbrev S4096x256 : Shape := ⟨2, ![4096, 256]⟩
abbrev S256 : Shape := ⟨1, ![256]⟩
abbrev S1x256 : Shape := ⟨2, ![1, 256]⟩
abbrev S256x256 : Shape := ⟨2, ![256, 256]⟩
abbrev S_ : Shape := ⟨0, ![]⟩
abbrev S65536 : Shape := ⟨1, ![65536]⟩
abbrev S32896 : Shape := ⟨1, ![32896]⟩
abbrev S65536x1 : Shape := ⟨2, ![65536, 1]⟩
abbrev S32896x1 : Shape := ⟨2, ![32896, 1]⟩
abbrev S32896x2 : Shape := ⟨2, ![32896, 2]⟩
abbrev S64x32896 : Shape := ⟨2, ![64, 32896]⟩

abbrev nBuf : Space → Nat
  | .hbm => 137
  | .vmem => 4
  | .smem => 0
  | _ => 0

abbrev hbmTy0_0 (i : Nat) : BufTy := match i % 128 with
  | 0 => ⟨S64x4096x256, .f32⟩
  | 1 => ⟨S64x256x256, .f32⟩
  | 2 => ⟨S_, .f32⟩
  | 3 => ⟨S256x256, .f32⟩
  | 4 => ⟨S256x256, .i32⟩
  | 5 => ⟨S_, .i32⟩
  | 6 => ⟨S256x256, .i32⟩
  | 7 => ⟨S256x256, .i32⟩
  | 8 => ⟨S256x256, .i32⟩
  | 9 => ⟨S256x256, .i1⟩
  | 10 => ⟨S_, .f32⟩
  | 11 => ⟨S256x256, .f32⟩
  | 12 => ⟨S256x256, .f32⟩
  | 13 => ⟨S_, .f32⟩
  | 14 => ⟨S256x256, .f32⟩
  | 15 => ⟨S256x256, .i1⟩
  | 16 => ⟨S65536, .i1⟩
  | 17 => ⟨S65536, .i32⟩
  | 18 => ⟨S_, .i32⟩
  | 19 => ⟨S_, .i32⟩
  | 20 => ⟨S65536, .i32⟩
  | 21 => ⟨S_, .i32⟩
  | 22 => ⟨S32896, .i32⟩
  | 23 => ⟨S_, .i32⟩
  | 24 => ⟨S_, .i32⟩
  | 25 => ⟨S65536, .i32⟩
  | 26 => ⟨S65536, .i32⟩
  | 27 => ⟨S_, .i32⟩
  | 28 => ⟨S65536, .i32⟩
  | 29 => ⟨S65536, .i1⟩
  | 30 => ⟨S_, .i32⟩
  | 31 => ⟨S65536, .i32⟩
  | 32 => ⟨S65536, .i32⟩
  | 33 => ⟨S65536, .i32⟩
  | 34 => ⟨S65536x1, .i32⟩
  | 35 => ⟨S_, .i32⟩
  | 36 => ⟨S65536, .i32⟩
  | 37 => ⟨S32896, .i32⟩
  | 38 => ⟨S_, .i32⟩
  | 39 => ⟨S_, .i32⟩
  | 40 => ⟨S32896, .i32⟩
  | 41 => ⟨S_, .i32⟩
  | 42 => ⟨S32896, .i32⟩
  | 43 => ⟨S32896, .i32⟩
  | 44 => ⟨S32896, .i32⟩
  | 45 => ⟨S_, .i32⟩
  | 46 => ⟨S32896, .i32⟩
  | 47 => ⟨S32896, .i1⟩
  | 48 => ⟨S32896, .i32⟩
  | 49 => ⟨S32896, .i32⟩
  | 50 => ⟨S_, .i32⟩
  | 51 => ⟨S32896, .i32⟩
  | 52 => ⟨S32896, .i1⟩
  | 53 => ⟨S32896, .i1⟩
  | 54 => ⟨S_, .i32⟩
  | 55 => ⟨S32896, .i32⟩
  | 56 => ⟨S32896, .i32⟩
  | 57 => ⟨S32896, .i32⟩
  | 58 => ⟨S_, .i32⟩
  | 59 => ⟨S_, .i32⟩
  | 60 => ⟨S_, .i32⟩
  | 61 => ⟨S_, .i1⟩
  | 62 => ⟨S_, .i32⟩
  | 63 => ⟨S_, .i32⟩
  | 64 => ⟨S32896, .i32⟩
  | 65 => ⟨S32896, .i32⟩
  | 66 => ⟨S_, .i32⟩
  | 67 => ⟨S32896, .i32⟩
  | 68 => ⟨S32896, .i1⟩
  | 69 => ⟨S_, .i32⟩
  | 70 => ⟨S32896, .i32⟩
  | 71 => ⟨S32896, .i1⟩
  | 72 => ⟨S_, .i32⟩
  | 73 => ⟨S_, .i1⟩
  | 74 => ⟨S32896, .i1⟩
  | 75 => ⟨S32896, .i1⟩
  | 76 => ⟨S32896, .i1⟩
  | 77 => ⟨S32896, .i32⟩
  | 78 => ⟨S32896, .i32⟩
  | 79 => ⟨S32896, .i32⟩
  | 80 => ⟨S_, .i32⟩
  | 81 => ⟨S32896, .i32⟩
  | 82 => ⟨S32896, .i32⟩
  | 83 => ⟨S32896, .i32⟩
  | 84 => ⟨S_, .i32⟩
  | 85 => ⟨S32896, .i32⟩
  | 86 => ⟨S32896, .i1⟩
  | 87 => ⟨S32896, .i32⟩
  | 88 => ⟨S32896, .i32⟩
  | 89 => ⟨S_, .i32⟩
  | 90 => ⟨S32896, .i32⟩
  | 91 => ⟨S32896, .i1⟩
  | 92 => ⟨S32896, .i1⟩
  | 93 => ⟨S_, .i32⟩
  | 94 => ⟨S32896, .i32⟩
  | 95 => ⟨S32896, .i32⟩
  | 96 => ⟨S32896, .i32⟩
  | 97 => ⟨S_, .i32⟩
  | 98 => ⟨S_, .i32⟩
  | 99 => ⟨S_, .i32⟩
  | 100 => ⟨S_, .i1⟩
  | 101 => ⟨S_, .i32⟩
  | 102 => ⟨S_, .i32⟩
  | 103 => ⟨S32896, .i32⟩
  | 104 => ⟨S32896, .i32⟩
  | 105 => ⟨S_, .i32⟩
  | 106 => ⟨S32896, .i32⟩
  | 107 => ⟨S32896, .i1⟩
  | 108 => ⟨S_, .i32⟩
  | 109 => ⟨S32896, .i32⟩
  | 110 => ⟨S32896, .i1⟩
  | 111 => ⟨S_, .i32⟩
  | 112 => ⟨S_, .i1⟩
  | 113 => ⟨S32896, .i1⟩
  | 114 => ⟨S32896, .i1⟩
  | 115 => ⟨S32896, .i1⟩
  | 116 => ⟨S32896, .i32⟩
  | 117 => ⟨S32896, .i32⟩
  | 118 => ⟨S32896, .i32⟩
  | 119 => ⟨S_, .i32⟩
  | 120 => ⟨S32896, .i32⟩
  | 121 => ⟨S32896, .i1⟩
  | 122 => ⟨S_, .i32⟩
  | 123 => ⟨S32896, .i32⟩
  | 124 => ⟨S32896, .i32⟩
  | 125 => ⟨S32896, .i32⟩
  | 126 => ⟨S_, .i32⟩
  | 127 => ⟨S32896, .i32⟩
  | _ => ⟨S64x4096x256, .f32⟩

abbrev hbmTy0_1 (i : Nat) : BufTy := match i % 128 with
  | 0 => ⟨S32896, .i1⟩
  | 1 => ⟨S_, .i32⟩
  | 2 => ⟨S32896, .i32⟩
  | 3 => ⟨S32896, .i32⟩
  | 4 => ⟨S32896, .i32⟩
  | 5 => ⟨S32896x1, .i32⟩
  | 6 => ⟨S32896x1, .i32⟩
  | 7 => ⟨S32896x2, .i32⟩
  | 8 => ⟨S64x32896, .f32⟩
  | _ => ⟨S64x4096x256, .f32⟩

abbrev hbmTy (i : Nat) : BufTy := match i / 128 with
  | 0 => hbmTy0_0 i
  | 1 => hbmTy0_1 i
  | _ => ⟨S64x4096x256, .f32⟩

abbrev bufTy : (tb : Table) → Fin (tcTables nBuf tb) → BufTy
  | .hbm, ⟨i, _⟩ => hbmTy i
  | .local _ .vmem, ⟨0, _⟩ => ⟨S1x4096x256, .f32⟩
  | .local _ .vmem, ⟨1, _⟩ => ⟨S1x4096x256, .f32⟩
  | .local _ .vmem, ⟨2, _⟩ => ⟨S1x256x256, .f32⟩
  | .local _ .vmem, ⟨3, _⟩ => ⟨S1x256x256, .f32⟩
  | _, _ => ⟨S64x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_call0_v0 : Ref sig .tc := ⟨.hbm, 4, rfl⟩
abbrev main_call0_c : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_cst : Ref sig .tc := ⟨.hbm, 10, rfl⟩
abbrev main_call0_v5 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_call1_v0 : Ref sig .tc := ⟨.hbm, 16, rfl⟩
abbrev main_call1_v1 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_c_1 : Ref sig .tc := ⟨.hbm, 23, rfl⟩
abbrev main_call2_v0 : Ref sig .tc := ⟨.hbm, 24, rfl⟩
abbrev main_call2_v1 : Ref sig .tc := ⟨.hbm, 25, rfl⟩
abbrev main_v7 : Ref sig .tc := ⟨.hbm, 26, rfl⟩
abbrev main_c_2 : Ref sig .tc := ⟨.hbm, 27, rfl⟩
abbrev main_v8 : Ref sig .tc := ⟨.hbm, 28, rfl⟩
abbrev main_v9 : Ref sig .tc := ⟨.hbm, 29, rfl⟩
abbrev main_c_3 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_c_4 : Ref sig .tc := ⟨.hbm, 35, rfl⟩
abbrev main_v14 : Ref sig .tc := ⟨.hbm, 36, rfl⟩
abbrev main_v15 : Ref sig .tc := ⟨.hbm, 37, rfl⟩
abbrev main_call3_call0_c : Ref sig .tc := ⟨.hbm, 38, rfl⟩
abbrev main_call3_call0_v0 : Ref sig .tc := ⟨.hbm, 39, rfl⟩
abbrev main_v16 : Ref sig .tc := ⟨.hbm, 40, rfl⟩
abbrev main_c_5 : Ref sig .tc := ⟨.hbm, 41, rfl⟩
abbrev main_call4_v0 : Ref sig .tc := ⟨.hbm, 42, rfl⟩
abbrev main_call4_v1 : Ref sig .tc := ⟨.hbm, 43, rfl⟩
abbrev main_call4_v2 : Ref sig .tc := ⟨.hbm, 44, rfl⟩
abbrev main_call4_v3 : Ref sig .tc := ⟨.hbm, 45, rfl⟩
abbrev main_call4_v4 : Ref sig .tc := ⟨.hbm, 46, rfl⟩
abbrev main_call4_v5 : Ref sig .tc := ⟨.hbm, 47, rfl⟩
abbrev main_call4_v6 : Ref sig .tc := ⟨.hbm, 48, rfl⟩
abbrev main_call4_v7 : Ref sig .tc := ⟨.hbm, 49, rfl⟩
abbrev main_call4_c : Ref sig .tc := ⟨.hbm, 50, rfl⟩
abbrev main_call4_v8 : Ref sig .tc := ⟨.hbm, 51, rfl⟩
abbrev main_call4_v9 : Ref sig .tc := ⟨.hbm, 52, rfl⟩
abbrev main_call4_v10 : Ref sig .tc := ⟨.hbm, 53, rfl⟩
abbrev main_call4_c_0 : Ref sig .tc := ⟨.hbm, 54, rfl⟩
abbrev main_call4_v11 : Ref sig .tc := ⟨.hbm, 55, rfl⟩
abbrev main_call4_v12 : Ref sig .tc := ⟨.hbm, 56, rfl⟩
abbrev main_v17 : Ref sig .tc := ⟨.hbm, 57, rfl⟩
abbrev main_c_6 : Ref sig .tc := ⟨.hbm, 58, rfl⟩
abbrev main_call5_v0 : Ref sig .tc := ⟨.hbm, 59, rfl⟩
abbrev main_call5_c : Ref sig .tc := ⟨.hbm, 60, rfl⟩
abbrev main_call5_v1 : Ref sig .tc := ⟨.hbm, 61, rfl⟩
abbrev main_call5_c_0 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_call5_c_1 : Ref sig .tc := ⟨.hbm, 66, rfl⟩
abbrev main_call5_v5 : Ref sig .tc := ⟨.hbm, 67, rfl⟩
abbrev main_call5_v6 : Ref sig .tc := ⟨.hbm, 68, rfl⟩
abbrev main_call5_c_2 : Ref sig .tc := ⟨.hbm, 69, rfl⟩
abbrev main_call5_v7 : Ref sig .tc := ⟨.hbm, 70, rfl⟩
abbrev main_call5_v8 : Ref sig .tc := ⟨.hbm, 71, rfl⟩
abbrev main_call5_c_3 : Ref sig .tc := ⟨.hbm, 72, rfl⟩
abbrev main_call5_v9 : Ref sig .tc := ⟨.hbm, 73, rfl⟩
abbrev main_call5_v10 : Ref sig .tc := ⟨.hbm, 74, rfl⟩
abbrev main_call5_v11 : Ref sig .tc := ⟨.hbm, 75, rfl⟩
abbrev main_call5_v12 : Ref sig .tc := ⟨.hbm, 76, rfl⟩
abbrev main_call5_v13 : Ref sig .tc := ⟨.hbm, 77, rfl⟩
abbrev main_call5_v14 : Ref sig .tc := ⟨.hbm, 78, rfl⟩
abbrev main_v18 : Ref sig .tc := ⟨.hbm, 79, rfl⟩
abbrev main_c_7 : Ref sig .tc := ⟨.hbm, 80, rfl⟩
abbrev main_call6_v0 : Ref sig .tc := ⟨.hbm, 81, rfl⟩
abbrev main_call6_v1 : Ref sig .tc := ⟨.hbm, 82, rfl⟩
abbrev main_call6_v2 : Ref sig .tc := ⟨.hbm, 83, rfl⟩
abbrev main_call6_v3 : Ref sig .tc := ⟨.hbm, 84, rfl⟩
abbrev main_call6_v4 : Ref sig .tc := ⟨.hbm, 85, rfl⟩
abbrev main_call6_v5 : Ref sig .tc := ⟨.hbm, 86, rfl⟩
abbrev main_call6_v6 : Ref sig .tc := ⟨.hbm, 87, rfl⟩
abbrev main_call6_v7 : Ref sig .tc := ⟨.hbm, 88, rfl⟩
abbrev main_call6_c : Ref sig .tc := ⟨.hbm, 89, rfl⟩
abbrev main_call6_v8 : Ref sig .tc := ⟨.hbm, 90, rfl⟩
abbrev main_call6_v9 : Ref sig .tc := ⟨.hbm, 91, rfl⟩
abbrev main_call6_v10 : Ref sig .tc := ⟨.hbm, 92, rfl⟩
abbrev main_call6_c_0 : Ref sig .tc := ⟨.hbm, 93, rfl⟩
abbrev main_call6_v11 : Ref sig .tc := ⟨.hbm, 94, rfl⟩
abbrev main_call6_v12 : Ref sig .tc := ⟨.hbm, 95, rfl⟩
abbrev main_v19 : Ref sig .tc := ⟨.hbm, 96, rfl⟩
abbrev main_c_8 : Ref sig .tc := ⟨.hbm, 97, rfl⟩
abbrev main_call7_v0 : Ref sig .tc := ⟨.hbm, 98, rfl⟩
abbrev main_call7_c : Ref sig .tc := ⟨.hbm, 99, rfl⟩
abbrev main_call7_v1 : Ref sig .tc := ⟨.hbm, 100, rfl⟩
abbrev main_call7_c_0 : Ref sig .tc := ⟨.hbm, 101, rfl⟩
abbrev main_call7_v2 : Ref sig .tc := ⟨.hbm, 102, rfl⟩
abbrev main_call7_v3 : Ref sig .tc := ⟨.hbm, 103, rfl⟩
abbrev main_call7_v4 : Ref sig .tc := ⟨.hbm, 104, rfl⟩
abbrev main_call7_c_1 : Ref sig .tc := ⟨.hbm, 105, rfl⟩
abbrev main_call7_v5 : Ref sig .tc := ⟨.hbm, 106, rfl⟩
abbrev main_call7_v6 : Ref sig .tc := ⟨.hbm, 107, rfl⟩
abbrev main_call7_c_2 : Ref sig .tc := ⟨.hbm, 108, rfl⟩
abbrev main_call7_v7 : Ref sig .tc := ⟨.hbm, 109, rfl⟩
abbrev main_call7_v8 : Ref sig .tc := ⟨.hbm, 110, rfl⟩
abbrev main_call7_c_3 : Ref sig .tc := ⟨.hbm, 111, rfl⟩
abbrev main_call7_v9 : Ref sig .tc := ⟨.hbm, 112, rfl⟩
abbrev main_call7_v10 : Ref sig .tc := ⟨.hbm, 113, rfl⟩
abbrev main_call7_v11 : Ref sig .tc := ⟨.hbm, 114, rfl⟩
abbrev main_call7_v12 : Ref sig .tc := ⟨.hbm, 115, rfl⟩
abbrev main_call7_v13 : Ref sig .tc := ⟨.hbm, 116, rfl⟩
abbrev main_call7_v14 : Ref sig .tc := ⟨.hbm, 117, rfl⟩
abbrev main_v20 : Ref sig .tc := ⟨.hbm, 118, rfl⟩
abbrev main_c_9 : Ref sig .tc := ⟨.hbm, 119, rfl⟩
abbrev main_v21 : Ref sig .tc := ⟨.hbm, 120, rfl⟩
abbrev main_v22 : Ref sig .tc := ⟨.hbm, 121, rfl⟩
abbrev main_c_10 : Ref sig .tc := ⟨.hbm, 122, rfl⟩
abbrev main_v23 : Ref sig .tc := ⟨.hbm, 123, rfl⟩
abbrev main_v24 : Ref sig .tc := ⟨.hbm, 124, rfl⟩
abbrev main_v25 : Ref sig .tc := ⟨.hbm, 125, rfl⟩
abbrev main_c_11 : Ref sig .tc := ⟨.hbm, 126, rfl⟩
abbrev main_v26 : Ref sig .tc := ⟨.hbm, 127, rfl⟩
abbrev main_v27 : Ref sig .tc := ⟨.hbm, 128, rfl⟩
abbrev main_c_12 : Ref sig .tc := ⟨.hbm, 129, rfl⟩
abbrev main_v28 : Ref sig .tc := ⟨.hbm, 130, rfl⟩
abbrev main_v29 : Ref sig .tc := ⟨.hbm, 131, rfl⟩
abbrev main_v30 : Ref sig .tc := ⟨.hbm, 132, rfl⟩
abbrev main_v31 : Ref sig .tc := ⟨.hbm, 133, rfl⟩
abbrev main_v32 : Ref sig .tc := ⟨.hbm, 134, rfl⟩
abbrev main_v33 : Ref sig .tc := ⟨.hbm, 135, rfl⟩
abbrev main_v34 : Ref sig .tc := ⟨.hbm, 136, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S1x4096x256_S1x4096x256_0_0_0 : ∀ a, (![0, 0, 0] : Fin 3 → Nat) a + S1x4096x256.size a ≤ S1x4096x256.size a
  h_S1x4096x256 : 0 < S1x4096x256.numel
  shapeCasts_S1x4096x256_S4096x256 : S1x4096x256.ShapeCasts S4096x256
  reduces_S4096x256_S256 : S4096x256.Reduces [0] S256
  shapeCasts_S256_S1x256 : S256.ShapeCasts S1x256
  broadcasts_S1x256_S4096x256 : S1x256.Broadcasts S4096x256
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  bcast_S_S256x256 : S_.BroadcastsInDim S256x256 (![] : Fin 0 → Fin S256x256.rank)
  shapeCasts_S256x256_S65536 : S256x256.ShapeCasts S65536
  natLt_1_32 : 1 < 32
  bcast_S_S_ : S_.BroadcastsInDim S_ (![] : Fin 0 → Fin S_.rank)
  reduceWindows_S65536_S65536_w65536s1p65535_0 : S65536.ReduceWindows (![65536] : Fin 1 → Nat) ![1] ![65535] ![0] S65536
  h_S_ : 0 < S_.numel
  bcast_S_S32896 : S_.BroadcastsInDim S32896 (![] : Fin 0 → Fin S32896.rank)
  bcast_S_S65536 : S_.BroadcastsInDim S65536 (![] : Fin 0 → Fin S65536.rank)
  bcast_S65536_S65536x1_0 : S65536.BroadcastsInDim S65536x1 (![0] : Fin 1 → Fin S65536x1.rank)
  reduceWindows_S32896_S32896_w32896s1p32895_0 : S32896.ReduceWindows (![32896] : Fin 1 → Nat) ![1] ![32895] ![0] S32896
  bcast_S32896_S32896x1_0 : S32896.BroadcastsInDim S32896x1 (![0] : Fin 1 → Fin S32896x1.rank)
  concatenates_S32896x1_S32896x1_S32896x2_d1 : Shape.Concatenates [S32896x1, S32896x1] S32896x2 1
  dot_S4096x256_S4096x256_S256x256_0_0_1_1_n_n_wf : DotDims.WF S4096x256 S4096x256 S256x256 [0] [0] [1] [1] [] []
  scatter_S32896_S65536x1_S65536_n_0_0_1_wf : ScatterDims.WF S32896 S65536x1 S65536 [] [0] [0] 1
  gather_S64x256x256_S32896x2_S64x32896_0_12_n_n_12_1_6411_wf : GatherDims.WF S64x256x256 S32896x2 S64x32896 [0] [1, 2] [] [1, 2] [] 1 ![64, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x256.size a ≤ S64x4096x256.size a
  hwx0_0 : ∀ i : grid0.Coords, EltTy.bits .f32 = 32 ∨ (Rect.block (s := S64x4096x256) S1x4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x256.size a ≤ S64x256x256.size a
  hwx0_1 : ∀ i : grid0.Coords, EltTy.bits .f32 = 32 ∨ (Rect.block (s := S64x256x256) S1x256x256.size (cc0_transform_1 i) (hinb0_1 i)).WholeWords (EltTy.packing .f32)

variable [Facts₀]

def dot_S4096x256_S4096x256_S256x256_0_0_1_1_n_n : DotDims S4096x256 S4096x256 S256x256 where
  lhsContracting := [0]
  rhsContracting := [0]
  lhsNonContracting := [1]
  rhsNonContracting := [1]
  lhsBatch := []
  rhsBatch := []
  wf := dot_S4096x256_S4096x256_S256x256_0_0_1_1_n_n_wf
def scatter_S32896_S65536x1_S65536_n_0_0_1 : ScatterDims S32896 S65536x1 S65536 where
  updateWindowDims := []
  insertedWindowDims := [0]
  scatterDimsToOperandDims := [0]
  indexVectorDim := 1
  wf := scatter_S32896_S65536x1_S65536_n_0_0_1_wf
def gather_S64x256x256_S32896x2_S64x32896_0_12_n_n_12_1_6411 : GatherDims S64x256x256 S32896x2 S64x32896 where
  offsetDims := [0]
  collapsedSliceDims := [1, 2]
  operandBatchingDims := []
  startIndicesBatchingDims := []
  startIndexMap := [1, 2]
  indexVectorDim := 1
  sliceSizes := ![64, 1, 1]
  wf := gather_S64x256x256_S32896x2_S64x32896_0_12_n_n_12_1_6411_wf

abbrev win0_0 : Pipeline.Window sig grid0 :=
  Pipeline.Window.ofSpec (Memref.whole main_arg0) S1x4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x256.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S64x4096x256 : Shape := ⟨3, ![64, 4096, 256]⟩
abbrev S_ : Shape := ⟨0, ![]⟩
abbrev S64x256 : Shape := ⟨2, ![64, 256]⟩
abbrev S64x1x256 : Shape := ⟨3, ![64, 1, 256]⟩
abbrev S64x256x256 : Shape := ⟨3, ![64, 256, 256]⟩
abbrev S256x256 : Shape := ⟨2, ![256, 256]⟩
abbrev S65536 : Shape := ⟨1, ![65536]⟩
abbrev S32896 : Shape := ⟨1, ![32896]⟩
abbrev S65536x1 : Shape := ⟨2, ![65536, 1]⟩
abbrev S32896x1 : Shape := ⟨2, ![32896, 1]⟩
abbrev S32896x2 : Shape := ⟨2, ![32896, 2]⟩
abbrev S64x32896 : Shape := ⟨2, ![64, 32896]⟩

abbrev nBuf : Space → Nat
  | .hbm => 148
  | .vmem => 0
  | .smem => 0
  | _ => 0

abbrev hbmTy0_0 (i : Nat) : BufTy := match i % 128 with
  | 0 => ⟨S64x4096x256, .f32⟩
  | 1 => ⟨S_, .f32⟩
  | 2 => ⟨S64x256, .f32⟩
  | 3 => ⟨S64x1x256, .f32⟩
  | 4 => ⟨S_, .f32⟩
  | 5 => ⟨S64x1x256, .f32⟩
  | 6 => ⟨S64x1x256, .f32⟩
  | 7 => ⟨S64x4096x256, .f32⟩
  | 8 => ⟨S64x4096x256, .f32⟩
  | 9 => ⟨S64x256x256, .f32⟩
  | 10 => ⟨S_, .f32⟩
  | 11 => ⟨S64x256x256, .f32⟩
  | 12 => ⟨S64x256x256, .f32⟩
  | 13 => ⟨S_, .f32⟩
  | 14 => ⟨S256x256, .f32⟩
  | 15 => ⟨S256x256, .i32⟩
  | 16 => ⟨S_, .i32⟩
  | 17 => ⟨S256x256, .i32⟩
  | 18 => ⟨S256x256, .i32⟩
  | 19 => ⟨S256x256, .i32⟩
  | 20 => ⟨S256x256, .i1⟩
  | 21 => ⟨S_, .f32⟩
  | 22 => ⟨S256x256, .f32⟩
  | 23 => ⟨S256x256, .f32⟩
  | 24 => ⟨S_, .f32⟩
  | 25 => ⟨S256x256, .f32⟩
  | 26 => ⟨S256x256, .i1⟩
  | 27 => ⟨S65536, .i1⟩
  | 28 => ⟨S65536, .i32⟩
  | 29 => ⟨S_, .i32⟩
  | 30 => ⟨S_, .i32⟩
  | 31 => ⟨S65536, .i32⟩
  | 32 => ⟨S_, .i32⟩
  | 33 => ⟨S32896, .i32⟩
  | 34 => ⟨S_, .i32⟩
  | 35 => ⟨S_, .i32⟩
  | 36 => ⟨S65536, .i32⟩
  | 37 => ⟨S65536, .i32⟩
  | 38 => ⟨S_, .i32⟩
  | 39 => ⟨S65536, .i32⟩
  | 40 => ⟨S65536, .i1⟩
  | 41 => ⟨S_, .i32⟩
  | 42 => ⟨S65536, .i32⟩
  | 43 => ⟨S65536, .i32⟩
  | 44 => ⟨S65536, .i32⟩
  | 45 => ⟨S65536x1, .i32⟩
  | 46 => ⟨S_, .i32⟩
  | 47 => ⟨S65536, .i32⟩
  | 48 => ⟨S32896, .i32⟩
  | 49 => ⟨S_, .i32⟩
  | 50 => ⟨S_, .i32⟩
  | 51 => ⟨S32896, .i32⟩
  | 52 => ⟨S_, .i32⟩
  | 53 => ⟨S32896, .i32⟩
  | 54 => ⟨S32896, .i32⟩
  | 55 => ⟨S32896, .i32⟩
  | 56 => ⟨S_, .i32⟩
  | 57 => ⟨S32896, .i32⟩
  | 58 => ⟨S32896, .i1⟩
  | 59 => ⟨S32896, .i32⟩
  | 60 => ⟨S32896, .i32⟩
  | 61 => ⟨S_, .i32⟩
  | 62 => ⟨S32896, .i32⟩
  | 63 => ⟨S32896, .i1⟩
  | 64 => ⟨S32896, .i1⟩
  | 65 => ⟨S_, .i32⟩
  | 66 => ⟨S32896, .i32⟩
  | 67 => ⟨S32896, .i32⟩
  | 68 => ⟨S32896, .i32⟩
  | 69 => ⟨S_, .i32⟩
  | 70 => ⟨S_, .i32⟩
  | 71 => ⟨S_, .i32⟩
  | 72 => ⟨S_, .i1⟩
  | 73 => ⟨S_, .i32⟩
  | 74 => ⟨S_, .i32⟩
  | 75 => ⟨S32896, .i32⟩
  | 76 => ⟨S32896, .i32⟩
  | 77 => ⟨S_, .i32⟩
  | 78 => ⟨S32896, .i32⟩
  | 79 => ⟨S32896, .i1⟩
  | 80 => ⟨S_, .i32⟩
  | 81 => ⟨S32896, .i32⟩
  | 82 => ⟨S32896, .i1⟩
  | 83 => ⟨S_, .i32⟩
  | 84 => ⟨S_, .i1⟩
  | 85 => ⟨S32896, .i1⟩
  | 86 => ⟨S32896, .i1⟩
  | 87 => ⟨S32896, .i1⟩
  | 88 => ⟨S32896, .i32⟩
  | 89 => ⟨S32896, .i32⟩
  | 90 => ⟨S32896, .i32⟩
  | 91 => ⟨S_, .i32⟩
  | 92 => ⟨S32896, .i32⟩
  | 93 => ⟨S32896, .i32⟩
  | 94 => ⟨S32896, .i32⟩
  | 95 => ⟨S_, .i32⟩
  | 96 => ⟨S32896, .i32⟩
  | 97 => ⟨S32896, .i1⟩
  | 98 => ⟨S32896, .i32⟩
  | 99 => ⟨S32896, .i32⟩
  | 100 => ⟨S_, .i32⟩
  | 101 => ⟨S32896, .i32⟩
  | 102 => ⟨S32896, .i1⟩
  | 103 => ⟨S32896, .i1⟩
  | 104 => ⟨S_, .i32⟩
  | 105 => ⟨S32896, .i32⟩
  | 106 => ⟨S32896, .i32⟩
  | 107 => ⟨S32896, .i32⟩
  | 108 => ⟨S_, .i32⟩
  | 109 => ⟨S_, .i32⟩
  | 110 => ⟨S_, .i32⟩
  | 111 => ⟨S_, .i1⟩
  | 112 => ⟨S_, .i32⟩
  | 113 => ⟨S_, .i32⟩
  | 114 => ⟨S32896, .i32⟩
  | 115 => ⟨S32896, .i32⟩
  | 116 => ⟨S_, .i32⟩
  | 117 => ⟨S32896, .i32⟩
  | 118 => ⟨S32896, .i1⟩
  | 119 => ⟨S_, .i32⟩
  | 120 => ⟨S32896, .i32⟩
  | 121 => ⟨S32896, .i1⟩
  | 122 => ⟨S_, .i32⟩
  | 123 => ⟨S_, .i1⟩
  | 124 => ⟨S32896, .i1⟩
  | 125 => ⟨S32896, .i1⟩
  | 126 => ⟨S32896, .i1⟩
  | 127 => ⟨S32896, .i32⟩
  | _ => ⟨S64x4096x256, .f32⟩

abbrev hbmTy0_1 (i : Nat) : BufTy := match i % 128 with
  | 0 => ⟨S32896, .i32⟩
  | 1 => ⟨S32896, .i32⟩
  | 2 => ⟨S_, .i32⟩
  | 3 => ⟨S32896, .i32⟩
  | 4 => ⟨S32896, .i1⟩
  | 5 => ⟨S_, .i32⟩
  | 6 => ⟨S32896, .i32⟩
  | 7 => ⟨S32896, .i32⟩
  | 8 => ⟨S32896, .i32⟩
  | 9 => ⟨S_, .i32⟩
  | 10 => ⟨S32896, .i32⟩
  | 11 => ⟨S32896, .i1⟩
  | 12 => ⟨S_, .i32⟩
  | 13 => ⟨S32896, .i32⟩
  | 14 => ⟨S32896, .i32⟩
  | 15 => ⟨S32896, .i32⟩
  | 16 => ⟨S32896x1, .i32⟩
  | 17 => ⟨S32896x1, .i32⟩
  | 18 => ⟨S32896x2, .i32⟩
  | 19 => ⟨S64x32896, .f32⟩
  | _ => ⟨S64x4096x256, .f32⟩

abbrev hbmTy (i : Nat) : BufTy := match i / 128 with
  | 0 => hbmTy0_0 i
  | 1 => hbmTy0_1 i
  | _ => ⟨S64x4096x256, .f32⟩

abbrev bufTy : (tb : Table) → Fin (tcTables nBuf tb) → BufTy
  | .hbm, ⟨i, _⟩ => hbmTy i
  | _, _ => ⟨S64x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_cst_2 : Ref sig .tc := ⟨.hbm, 13, rfl⟩
abbrev main_v9 : Ref sig .tc := ⟨.hbm, 14, rfl⟩
abbrev main_call0_v0 : Ref sig .tc := ⟨.hbm, 15, rfl⟩
abbrev main_call0_c : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_cst : Ref sig .tc := ⟨.hbm, 21, rfl⟩
abbrev main_call0_v5 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_call1_v0 : Ref sig .tc := ⟨.hbm, 27, rfl⟩
abbrev main_call1_v1 : Ref sig .tc := ⟨.hbm, 28, rfl⟩
abbrev main_call1_call0_c : Ref sig .tc := ⟨.hbm, 29, rfl⟩
abbrev main_call1_call0_v0 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_c_4 : Ref sig .tc := ⟨.hbm, 34, rfl⟩
abbrev main_call2_v0 : Ref sig .tc := ⟨.hbm, 35, rfl⟩
abbrev main_call2_v1 : Ref sig .tc := ⟨.hbm, 36, rfl⟩
abbrev main_v15 : Ref sig .tc := ⟨.hbm, 37, rfl⟩
abbrev main_c_5 : Ref sig .tc := ⟨.hbm, 38, rfl⟩
abbrev main_v16 : Ref sig .tc := ⟨.hbm, 39, rfl⟩
abbrev main_v17 : Ref sig .tc := ⟨.hbm, 40, rfl⟩
abbrev main_c_6 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c_7 : Ref sig .tc := ⟨.hbm, 46, rfl⟩
abbrev main_v22 : Ref sig .tc := ⟨.hbm, 47, rfl⟩
abbrev main_v23 : Ref sig .tc := ⟨.hbm, 48, rfl⟩
abbrev main_call3_call0_c : Ref sig .tc := ⟨.hbm, 49, rfl⟩
abbrev main_call3_call0_v0 : Ref sig .tc := ⟨.hbm, 50, rfl⟩
abbrev main_v24 : Ref sig .tc := ⟨.hbm, 51, rfl⟩
abbrev main_c_8 : Ref sig .tc := ⟨.hbm, 52, rfl⟩
abbrev main_call4_v0 : Ref sig .tc := ⟨.hbm, 53, rfl⟩
abbrev main_call4_v1 : Ref sig .tc := ⟨.hbm, 54, rfl⟩
abbrev main_call4_v2 : Ref sig .tc := ⟨.hbm, 55, rfl⟩
abbrev main_call4_v3 : Ref sig .tc := ⟨.hbm, 56, rfl⟩
abbrev main_call4_v4 : Ref sig .tc := ⟨.hbm, 57, rfl⟩
abbrev main_call4_v5 : Ref sig .tc := ⟨.hbm, 58, rfl⟩
abbrev main_call4_v6 : Ref sig .tc := ⟨.hbm, 59, rfl⟩
abbrev main_call4_v7 : Ref sig .tc := ⟨.hbm, 60, rfl⟩
abbrev main_call4_c : Ref sig .tc := ⟨.hbm, 61, rfl⟩
abbrev main_call4_v8 : Ref sig .tc := ⟨.hbm, 62, rfl⟩
abbrev main_call4_v9 : Ref sig .tc := ⟨.hbm, 63, rfl⟩
abbrev main_call4_v10 : Ref sig .tc := ⟨.hbm, 64, rfl⟩
abbrev main_call4_c_0 : Ref sig .tc := ⟨.hbm, 65, rfl⟩
abbrev main_call4_v11 : Ref sig .tc := ⟨.hbm, 66, rfl⟩
abbrev main_call4_v12 : Ref sig .tc := ⟨.hbm, 67, rfl⟩
abbrev main_v25 : Ref sig .tc := ⟨.hbm, 68, rfl⟩
abbrev main_c_9 : Ref sig .tc := ⟨.hbm, 69, rfl⟩
abbrev main_call5_v0 : Ref sig .tc := ⟨.hbm, 70, rfl⟩
abbrev main_call5_c : Ref sig .tc := ⟨.hbm, 71, rfl⟩
abbrev main_call5_v1 : Ref sig .tc := ⟨.hbm, 72, rfl⟩
abbrev main_call5_c_0 : Ref sig .tc := ⟨.hbm, 73, rfl⟩
abbrev main_call5_v2 : Ref sig .tc := ⟨.hbm, 74, rfl⟩
abbrev main_call5_v3 : Ref sig .tc := ⟨.hbm, 75, rfl⟩
abbrev main_call5_v4 : Ref sig .tc := ⟨.hbm, 76, rfl⟩
abbrev main_call5_c_1 : Ref sig .tc := ⟨.hbm, 77, rfl⟩
abbrev main_call5_v5 : Ref sig .tc := ⟨.hbm, 78, rfl⟩
abbrev main_call5_v6 : Ref sig .tc := ⟨.hbm, 79, rfl⟩
abbrev main_call5_c_2 : Ref sig .tc := ⟨.hbm, 80, rfl⟩
abbrev main_call5_v7 : Ref sig .tc := ⟨.hbm, 81, rfl⟩
abbrev main_call5_v8 : Ref sig .tc := ⟨.hbm, 82, rfl⟩
abbrev main_call5_c_3 : Ref sig .tc := ⟨.hbm, 83, rfl⟩
abbrev main_call5_v9 : Ref sig .tc := ⟨.hbm, 84, rfl⟩
abbrev main_call5_v10 : Ref sig .tc := ⟨.hbm, 85, rfl⟩
abbrev main_call5_v11 : Ref sig .tc := ⟨.hbm, 86, rfl⟩
abbrev main_call5_v12 : Ref sig .tc := ⟨.hbm, 87, rfl⟩
abbrev main_call5_v13 : Ref sig .tc := ⟨.hbm, 88, rfl⟩
abbrev main_call5_v14 : Ref sig .tc := ⟨.hbm, 89, rfl⟩
abbrev main_v26 : Ref sig .tc := ⟨.hbm, 90, rfl⟩
abbrev main_c_10 : Ref sig .tc := ⟨.hbm, 91, rfl⟩
abbrev main_call6_v0 : Ref sig .tc := ⟨.hbm, 92, rfl⟩
abbrev main_call6_v1 : Ref sig .tc := ⟨.hbm, 93, rfl⟩
abbrev main_call6_v2 : Ref sig .tc := ⟨.hbm, 94, rfl⟩
abbrev main_call6_v3 : Ref sig .tc := ⟨.hbm, 95, rfl⟩
abbrev main_call6_v4 : Ref sig .tc := ⟨.hbm, 96, rfl⟩
abbrev main_call6_v5 : Ref sig .tc := ⟨.hbm, 97, rfl⟩
abbrev main_call6_v6 : Ref sig .tc := ⟨.hbm, 98, rfl⟩
abbrev main_call6_v7 : Ref sig .tc := ⟨.hbm, 99, rfl⟩
abbrev main_call6_c : Ref sig .tc := ⟨.hbm, 100, rfl⟩
abbrev main_call6_v8 : Ref sig .tc := ⟨.hbm, 101, rfl⟩
abbrev main_call6_v9 : Ref sig .tc := ⟨.hbm, 102, rfl⟩
abbrev main_call6_v10 : Ref sig .tc := ⟨.hbm, 103, rfl⟩
abbrev main_call6_c_0 : Ref sig .tc := ⟨.hbm, 104, rfl⟩
abbrev main_call6_v11 : Ref sig .tc := ⟨.hbm, 105, rfl⟩
abbrev main_call6_v12 : Ref sig .tc := ⟨.hbm, 106, rfl⟩
abbrev main_v27 : Ref sig .tc := ⟨.hbm, 107, rfl⟩
abbrev main_c_11 : Ref sig .tc := ⟨.hbm, 108, rfl⟩
abbrev main_call7_v0 : Ref sig .tc := ⟨.hbm, 109, rfl⟩
abbrev main_call7_c : Ref sig .tc := ⟨.hbm, 110, rfl⟩
abbrev main_call7_v1 : Ref sig .tc := ⟨.hbm, 111, rfl⟩
abbrev main_call7_c_0 : Ref sig .tc := ⟨.hbm, 112, rfl⟩
abbrev main_call7_v2 : Ref sig .tc := ⟨.hbm, 113, rfl⟩
abbrev main_call7_v3 : Ref sig .tc := ⟨.hbm, 114, rfl⟩
abbrev main_call7_v4 : Ref sig .tc := ⟨.hbm, 115, rfl⟩
abbrev main_call7_c_1 : Ref sig .tc := ⟨.hbm, 116, rfl⟩
abbrev main_call7_v5 : Ref sig .tc := ⟨.hbm, 117, rfl⟩
abbrev main_call7_v6 : Ref sig .tc := ⟨.hbm, 118, rfl⟩
abbrev main_call7_c_2 : Ref sig .tc := ⟨.hbm, 119, rfl⟩
abbrev main_call7_v7 : Ref sig .tc := ⟨.hbm, 120, rfl⟩
abbrev main_call7_v8 : Ref sig .tc := ⟨.hbm, 121, rfl⟩
abbrev main_call7_c_3 : Ref sig .tc := ⟨.hbm, 122, rfl⟩
abbrev main_call7_v9 : Ref sig .tc := ⟨.hbm, 123, rfl⟩
abbrev main_call7_v10 : Ref sig .tc := ⟨.hbm, 124, rfl⟩
abbrev main_call7_v11 : Ref sig .tc := ⟨.hbm, 125, rfl⟩
abbrev main_call7_v12 : Ref sig .tc := ⟨.hbm, 126, rfl⟩
abbrev main_call7_v13 : Ref sig .tc := ⟨.hbm, 127, rfl⟩
abbrev main_call7_v14 : Ref sig .tc := ⟨.hbm, 128, rfl⟩
abbrev main_v28 : Ref sig .tc := ⟨.hbm, 129, rfl⟩
abbrev main_c_12 : Ref sig .tc := ⟨.hbm, 130, rfl⟩
abbrev main_v29 : Ref sig .tc := ⟨.hbm, 131, rfl⟩
abbrev main_v30 : Ref sig .tc := ⟨.hbm, 132, rfl⟩
abbrev main_c_13 : Ref sig .tc := ⟨.hbm, 133, rfl⟩
abbrev main_v31 : Ref sig .tc := ⟨.hbm, 134, rfl⟩
abbrev main_v32 : Ref sig .tc := ⟨.hbm, 135, rfl⟩
abbrev main_v33 : Ref sig .tc := ⟨.hbm, 136, rfl⟩
abbrev main_c_14 : Ref sig .tc := ⟨.hbm, 137, rfl⟩
abbrev main_v34 : Ref sig .tc := ⟨.hbm, 138, rfl⟩
abbrev main_v35 : Ref sig .tc := ⟨.hbm, 139, rfl⟩
abbrev main_c_15 : Ref sig .tc := ⟨.hbm, 140, rfl⟩
abbrev main_v36 : Ref sig .tc := ⟨.hbm, 141, rfl⟩
abbrev main_v37 : Ref sig .tc := ⟨.hbm, 142, rfl⟩
abbrev main_v38 : Ref sig .tc := ⟨.hbm, 143, rfl⟩
abbrev main_v39 : Ref sig .tc := ⟨.hbm, 144, rfl⟩
abbrev main_v40 : Ref sig .tc := ⟨.hbm, 145, rfl⟩
abbrev main_v41 : Ref sig .tc := ⟨.hbm, 146, rfl⟩
abbrev main_v42 : Ref sig .tc := ⟨.hbm, 147, rfl⟩

abbrev nD : Nat := 1
abbrev τ : Topo := Topo.v7x

variable {F : FTy → Type} [FloatOps F]

class Facts₀ : Prop where
  reducesTo_S64x4096x256_S64x256_d1 : S64x4096x256.ReducesTo [1] S64x256
  h_S_ : 0 < S_.numel
  bcast_S64x256_S64x1x256_0_2 : S64x256.BroadcastsInDim S64x1x256 (![0, 2] : Fin 2 → Fin S64x1x256.rank)
  bcast_S_S64x1x256 : S_.BroadcastsInDim S64x1x256 (![] : Fin 0 → Fin S64x1x256.rank)
  bcast_S64x1x256_S64x4096x256_0_1_2 : S64x1x256.BroadcastsInDim S64x4096x256 (![0, 1, 2] : Fin 3 → Fin S64x4096x256.rank)
  bcast_S_S64x256x256 : S_.BroadcastsInDim S64x256x256 (![] : Fin 0 → Fin S64x256x256.rank)
  bcast_S_S256x256 : S_.BroadcastsInDim S256x256 (![] : Fin 0 → Fin S256x256.rank)
  shapeCasts_S256x256_S65536 : S256x256.ShapeCasts S65536
  natLt_1_32 : 1 < 32
  bcast_S_S_ : S_.BroadcastsInDim S_ (![] : Fin 0 → Fin S_.rank)
  reduceWindows_S65536_S65536_w65536s1p65535_0 : S65536.ReduceWindows (![65536] : Fin 1 → Nat) ![1] ![65535] ![0] S65536
  bcast_S_S32896 : S_.BroadcastsInDim S32896 (![] : Fin 0 → Fin S32896.rank)
  bcast_S_S65536 : S_.BroadcastsInDim S65536 (![] : Fin 0 → Fin S65536.rank)
  bcast_S65536_S65536x1_0 : S65536.BroadcastsInDim S65536x1 (![0] : Fin 1 → Fin S65536x1.rank)
  reduceWindows_S32896_S32896_w32896s1p32895_0 : S32896.ReduceWindows (![32896] : Fin 1 → Nat) ![1] ![32895] ![0] S32896
  bcast_S32896_S32896x1_0 : S32896.BroadcastsInDim S32896x1 (![0] : Fin 1 → Fin S32896x1.rank)
  concatenates_S32896x1_S32896x1_S32896x2_d1 : Shape.Concatenates [S32896x1, S32896x1] S32896x2 1
  dot_S64x4096x256_S64x4096x256_S64x256x256_1_1_2_2_0_0_wf : DotDims.WF S64x4096x256 S64x4096x256 S64x256x256 [1] [1] [2] [2] [0] [0]
  scatter_S32896_S65536x1_S65536_n_0_0_1_wf : ScatterDims.WF S32896 S65536x1 S65536 [] [0] [0] 1
  gather_S64x256x256_S32896x2_S64x32896_0_12_n_n_12_1_6411_wf : GatherDims.WF S64x256x256 S32896x2 S64x32896 [0] [1, 2] [] [1, 2] [] 1 ![64, 1, 1]

variable [Facts₀]

def dot_S64x4096x256_S64x4096x256_S64x256x256_1_1_2_2_0_0 : DotDims S64x4096x256 S64x4096x256 S64x256x256 where
  lhsContracting := [1]
  rhsContracting := [1]
  lhsNonContracting := [2]
  rhsNonContracting := [2]
  lhsBatch := [0]
  rhsBatch := [0]
  wf := dot_S64x4096x256_S64x4096x256_S64x256x256_1_1_2_2_0_0_wf
def scatter_S32896_S65536x1_S65536_n_0_0_1 : ScatterDims S32896 S65536x1 S65536 where
  updateWindowDims := []
  insertedWindowDims := [0]
  scatterDimsToOperandDims := [0]
  indexVectorDim := 1
  wf := scatter_S32896_S65536x1_S65536_n_0_0_1_wf
def gather_S64x256x256_S32896x2_S64x32896_0_12_n_n_12_1_6411 : GatherDims S64x256x256 S32896x2 S64x32896 where
  offsetDims := [0]
  collapsedSliceDims := [1, 2]
  operandBatchingDims := []
  startIndicesBatchingDims := []
  startIndexMap := [1, 2]
  indexVectorDim := 1
  sliceSizes := ![64, 1, 1]
  wf := gather_S64x256x256_S32896x2_S64x32896_0_12_n_n_12_1_6411_wf

class Facts : Prop extends Facts₀ where

variable [Facts]
-- ==== Proof.KBody.lean ====
/-
  The frame run of the covariance program's one region, at any float instance.

  The region has a grid of 64 points, one per batch. At point t the body is handed the batch's 4096×256 block of the
  argument array in one staging buffer and leaves, in the output window's staging buffer, one 256×256 block: a
  single whole-buffer store of a pure function (the skeleton's payload) of the loaded block. So after the body the
  output buffer is that payload of the input block, whatever it held before; the argument's buffer is unchanged.
  From these the pipeline library computes every array after the region: the argument array as the region found
  it, the output array overwritten block by block by what each point left.
-/
import proofs.«151729_j47493748359314_1_alg».proof.Proof.Gen.KernelIdeal.Launch
import proofs.«151729_j47493748359314_1_alg».proof.Proof.Gen.KernelIdeal.Skeleton
import proofs.«151729_j47493748359314_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered. The region is @main's first line, so these are the
    launch contents (the fold of no host operation over them). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The argument array is found as launched. -/
theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds the batch's block at every point: the window is fetched at
    every point, never cut, never idle. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The one rectangle the body stores through: the whole 1×256×256 buffer. -/
abbrev rOut : Rect S1x256x256 := Rect.unit (s := S1x256x256) ![0, 0, 0] S1x256x256.size inb_S1x256x256_S1x256x256_0_0_0
/-- The one rectangle the body loads the batch through: the whole 1×4096×256 buffer. -/
abbrev rIn : Rect S1x4096x256 := Rect.unit (s := S1x4096x256) ![0, 0, 0] S1x4096x256.size inb_S1x4096x256_S1x4096x256_0_0_0

/-- The output window's staging buffer after the body, from the input block: its one store read back. -/
def outBlock (x0 : Vec F S1x4096x256 .f32) : Vec F S1x256x256 .f32 :=
  View.canon [⟨rOut, k0_pay1 (View.ld x0 rIn)⟩]

/-- The one store covers the buffer. -/
theorem cover_out (p0 : Vec F S1x256x256 .f32) (y : S1x256x256.Idx) :
    ∃ pc ∈ ([⟨rOut, p0⟩] : List (View.Piece (Elt F) S1x256x256 .f32)), y ∈ pc.1.set :=
  View.cover_of_tiled [⟨rOut, p0⟩] S1x256x256.size (by rfl) y

/-! ## The body's triple -/

set_option maxHeartbeats 4000000 in
/-- The kernel body on whole staging memrefs — the input's at contents `x0`, the output's at anything — runs to the
    continuation holding the input's as it was and the output's at `outBlock x0`. -/
theorem sound_kernel (c : Dev nD) (E : Set ℕ) (i : grid0.Coords) (arg1 : Memref sig .tc .vmem S1x4096x256 .f32) (harg1 : arg1.IsWhole)
    (arg2 : Memref sig .tc .vmem S1x256x256 .f32) (harg2 : arg2.IsWhole)
    (x0 : Vec F S1x4096x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0__cov_kernel i arg1 harg1 arg2 harg2) K := by
  simp only [cc0__cov_kernel_eq_skeleton]; unfold cc0__cov_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The pipeline's proof data -/

/-- The proof data of the one pipeline on core `c`: the arrays as the region finds them; after the body at point
    `t` the input's buffer at the batch's block and the output's at `outBlock` of it; the class invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds the batch's block, so `sound_kernel` applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KTail.lean ====
import proofs.«151729_j47493748359314_1_alg».proof.Proof.Gen.KernelIdeal.Launch
import Idealize.ShloMosaic.Lib.Pipeline.FrameSuffix
import Idealize.ShloMosaic.Lib.StableHlo.Run

/-!
# The host lines after the region

The program is one pipelined region followed by 135 host operations, printed as seventeen stretches. This module
states what the frame proof needs of them: every operation touches only references a line after the region may touch,
allocates nothing, and writes neither of the pipeline's two arrays (the argument and the region's output); hence the
argument array ends as it was, and the program's result is the gather of the region's output at the index table the
earlier lines compute.
-/

set_option maxRecDepth 4096

noncomputable section

namespace Cert.KernelIdeal.Tail

open Cert.KernelIdeal Cert.KernelIdeal.Gen Idealize.ShloMosaic Idealize.ShloMosaic.TcCoe Idealize.SL.Sem Idealize.ShloMosaic.StableHlo

variable {F : FTy → Type} [FloatOps F]

/-- the host lines after the region, stretch by stretch -/
abbrev opss : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-! ## Lists of lists: a property of every operation of every stretch, stretch by stretch -/

/-- A property holding of every element of every list of a literal list of lists, given list by list. -/
theorem forall_of_forall {α : Type} {P : α → Prop} {ls : List (List α)} (h : ls.Forall fun l => l.Forall P) :
    ∀ l ∈ ls, ∀ a ∈ l, P a :=
  fun l hl => List.forall_iff_forall_mem.mp ((List.forall_iff_forall_mem.mp h) l hl)

/-! ## Every operation stays within the references a line after the region may touch -/

/-- With nothing prefetched those references are all the unscoped ones, and each operation's buffers are unscoped
    TensorCore references. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  have key : ∀ ops : List (HloOp τ sig (Elt F)), (ops.Forall fun op => op.bufs ⊆ StableHlo.tcRefs τ sig) →
      ops.Forall fun op => op.bufs ⊆ Pipeline.ucRefs τ sig := fun ops h =>
    List.forall_iff_forall_mem.mpr fun op hop => Pipeline.sub_ucRefs op ((List.forall_iff_forall_mem.mp h) op hop)
  exact forall_of_forall ⟨key _ hostOps1_sub, key _ hostOps1_1_sub, key _ hostOps1_2_sub, key _ hostOps1_3_sub, key _ hostOps1_4_sub, key _ hostOps1_5_sub, key _ hostOps1_6_sub, key _ hostOps1_7_sub, key _ hostOps1_8_sub, key _ hostOps1_9_sub, key _ hostOps1_10_sub, key _ hostOps1_11_sub, key _ hostOps1_12_sub, key _ hostOps1_13_sub, key _ hostOps1_14_sub, key _ hostOps1_15_sub, key _ hostOps1_16_sub⟩

/-! ## No operation allocates -/

theorem fresh_0 : (hostOps1 : List (HloOp τ sig (Elt F))).Forall fun op => op.fresh = ∅ := by
  simp only [List.Forall]; repeat' constructor
theorem fresh_1 : (hostOps1_1 : List (HloOp τ sig (Elt F))).Forall fun op => op.fresh = ∅ := by
  simp only [List.Forall]; repeat' constructor
theorem fresh_2 : (hostOps1_2 : List (HloOp τ sig (Elt F))).Forall fun op => op.fresh = ∅ := by
  simp only [List.Forall]; repeat' constructor
theorem fresh_3 : (hostOps1_3 : List (HloOp τ sig (Elt F))).Forall fun op => op.fresh = ∅ := by
  simp only [List.Forall]; repeat' constructor
theorem fresh_4 : (hostOps1_4 : List (HloOp τ sig (Elt F))).Forall fun op => op.fresh = ∅ := by
  simp only [List.Forall]; repeat' constructor
theorem fresh_5 : (hostOps1_5 : List (HloOp τ sig (Elt F))).Forall fun op => op.fresh = ∅ := by
  simp only [List.Forall]; repeat' constructor
theorem fresh_6 : (hostOps1_6 : List (HloOp τ sig (Elt F))).Forall fun op => op.fresh = ∅ := by
  simp only [List.Forall]; repeat' constructor
theorem fresh_7 : (hostOps1_7 : List (HloOp τ sig (Elt F))).Forall fun op => op.fresh = ∅ := by
  simp only [List.Forall]; repeat' constructor
theorem fresh_8 : (hostOps1_8 : List (HloOp τ sig (Elt F))).Forall fun op => op.fresh = ∅ := by
  simp only [List.Forall]; repeat' constructor
theorem fresh_9 : (hostOps1_9 : List (HloOp τ sig (Elt F))).Forall fun op => op.fresh = ∅ := by
  simp only [List.Forall]; repeat' constructor
theorem fresh_10 : (hostOps1_10 : List (HloOp τ sig (Elt F))).Forall fun op => op.fresh = ∅ := by
  simp only [List.Forall]; repeat' constructor
theorem fresh_11 : (hostOps1_11 : List (HloOp τ sig (Elt F))).Forall fun op => op.fresh = ∅ := by
  simp only [List.Forall]; repeat' constructor
theorem fresh_12 : (hostOps1_12 : List (HloOp τ sig (Elt F))).Forall fun op => op.fresh = ∅ := by
  simp only [List.Forall]; repeat' constructor
theorem fresh_13 : (hostOps1_13 : List (HloOp τ sig (Elt F))).Forall fun op => op.fresh = ∅ := by
  simp only [List.Forall]; repeat' constructor
theorem fresh_14 : (hostOps1_14 : List (HloOp τ sig (Elt F))).Forall fun op => op.fresh = ∅ := by
  simp only [List.Forall]; repeat' constructor
theorem fresh_15 : (hostOps1_15 : List (HloOp τ sig (Elt F))).Forall fun op => op.fresh = ∅ := by
  simp only [List.Forall]; repeat' constructor
theorem fresh_16 : (hostOps1_16 : List (HloOp τ sig (Elt F))).Forall fun op => op.fresh = ∅ := by
  simp only [List.Forall]; repeat' constructor

theorem sfx_fresh : ∀ ops ∈ (opss : List (List (HloOp τ sig (Elt F)))), ∀ op ∈ ops, op.fresh = ∅ :=
  forall_of_forall ⟨fresh_0, fresh_1, fresh_2, fresh_3, fresh_4, fresh_5, fresh_6, fresh_7, fresh_8, fresh_9, fresh_10, fresh_11, fresh_12, fresh_13, fresh_14, fresh_15, fresh_16⟩

/-! ## No operation writes an array of the pipeline

Each operation writes exactly its own result buffer, and no result buffer is the argument array or the region's
output array. -/

/-- An operation whose only written buffer is `y`, `y` being no array of the pipeline, writes no array of it. -/
theorem keep {op : HloOp τ sig (Elt F)} {y : Ref sig .tc} (hw : op.writes = {Proc.devRef .tc y})
    (h : ∀ w, Pipeline.arrRef spec0 w ≠ y) : ∀ w, Proc.devRef .tc (Pipeline.arrRef spec0 w) ∉ op.writes := by
  intro w hm
  rw [hw, Finset.mem_singleton] at hm
  exact StableHlo.devRef_ne_of_ne (h w) hm

theorem keeps_0 : (hostOps1 : List (HloOp τ sig (Elt F))).Forall fun op =>
    ∀ w, Proc.devRef .tc (Pipeline.arrRef spec0 w) ∉ op.writes := by
  simp only [List.Forall]; repeat' constructor
  all_goals exact keep rfl (by decide)
theorem keeps_1 : (hostOps1_1 : List (HloOp τ sig (Elt F))).Forall fun op =>
    ∀ w, Proc.devRef .tc (Pipeline.arrRef spec0 w) ∉ op.writes := by
  simp only [List.Forall]; repeat' constructor
  all_goals exact keep rfl (by decide)
theorem keeps_2 : (hostOps1_2 : List (HloOp τ sig (Elt F))).Forall fun op =>
    ∀ w, Proc.devRef .tc (Pipeline.arrRef spec0 w) ∉ op.writes := by
  simp only [List.Forall]; repeat' constructor
  all_goals exact keep rfl (by decide)
theorem keeps_3 : (hostOps1_3 : List (HloOp τ sig (Elt F))).Forall fun op =>
    ∀ w, Proc.devRef .tc (Pipeline.arrRef spec0 w) ∉ op.writes := by
  simp only [List.Forall]; repeat' constructor
  all_goals exact keep rfl (by decide)
theorem keeps_4 : (hostOps1_4 : List (HloOp τ sig (Elt F))).Forall fun op =>
    ∀ w, Proc.devRef .tc (Pipeline.arrRef spec0 w) ∉ op.writes := by
  simp only [List.Forall]; repeat' constructor
  all_goals exact keep rfl (by decide)
theorem keeps_5 : (hostOps1_5 : List (HloOp τ sig (Elt F))).Forall fun op =>
    ∀ w, Proc.devRef .tc (Pipeline.arrRef spec0 w) ∉ op.writes := by
  simp only [List.Forall]; repeat' constructor
  all_goals exact keep rfl (by decide)
theorem keeps_6 : (hostOps1_6 : List (HloOp τ sig (Elt F))).Forall fun op =>
    ∀ w, Proc.devRef .tc (Pipeline.arrRef spec0 w) ∉ op.writes := by
  simp only [List.Forall]; repeat' constructor
  all_goals exact keep rfl (by decide)
theorem keeps_7 : (hostOps1_7 : List (HloOp τ sig (Elt F))).Forall fun op =>
    ∀ w, Proc.devRef .tc (Pipeline.arrRef spec0 w) ∉ op.writes := by
  simp only [List.Forall]; repeat' constructor
  all_goals exact keep rfl (by decide)
theorem keeps_8 : (hostOps1_8 : List (HloOp τ sig (Elt F))).Forall fun op =>
    ∀ w, Proc.devRef .tc (Pipeline.arrRef spec0 w) ∉ op.writes := by
  simp only [List.Forall]; repeat' constructor
  all_goals exact keep rfl (by decide)
theorem keeps_9 : (hostOps1_9 : List (HloOp τ sig (Elt F))).Forall fun op =>
    ∀ w, Proc.devRef .tc (Pipeline.arrRef spec0 w) ∉ op.writes := by
  simp only [List.Forall]; repeat' constructor
  all_goals exact keep rfl (by decide)
theorem keeps_10 : (hostOps1_10 : List (HloOp τ sig (Elt F))).Forall fun op =>
    ∀ w, Proc.devRef .tc (Pipeline.arrRef spec0 w) ∉ op.writes := by
  simp only [List.Forall]; repeat' constructor
  all_goals exact keep rfl (by decide)
theorem keeps_11 : (hostOps1_11 : List (HloOp τ sig (Elt F))).Forall fun op =>
    ∀ w, Proc.devRef .tc (Pipeline.arrRef spec0 w) ∉ op.writes := by
  simp only [List.Forall]; repeat' constructor
  all_goals exact keep rfl (by decide)
theorem keeps_12 : (hostOps1_12 : List (HloOp τ sig (Elt F))).Forall fun op =>
    ∀ w, Proc.devRef .tc (Pipeline.arrRef spec0 w) ∉ op.writes := by
  simp only [List.Forall]; repeat' constructor
  all_goals exact keep rfl (by decide)
theorem keeps_13 : (hostOps1_13 : List (HloOp τ sig (Elt F))).Forall fun op =>
    ∀ w, Proc.devRef .tc (Pipeline.arrRef spec0 w) ∉ op.writes := by
  simp only [List.Forall]; repeat' constructor
  all_goals exact keep rfl (by decide)
theorem keeps_14 : (hostOps1_14 : List (HloOp τ sig (Elt F))).Forall fun op =>
    ∀ w, Proc.devRef .tc (Pipeline.arrRef spec0 w) ∉ op.writes := by
  simp only [List.Forall]; repeat' constructor
  all_goals exact keep rfl (by decide)
theorem keeps_15 : (hostOps1_15 : List (HloOp τ sig (Elt F))).Forall fun op =>
    ∀ w, Proc.devRef .tc (Pipeline.arrRef spec0 w) ∉ op.writes := by
  simp only [List.Forall]; repeat' constructor
  all_goals exact keep rfl (by decide)
theorem keeps_16 : (hostOps1_16 : List (HloOp τ sig (Elt F))).Forall fun op =>
    ∀ w, Proc.devRef .tc (Pipeline.arrRef spec0 w) ∉ op.writes := by
  simp only [List.Forall]; repeat' constructor
  all_goals exact keep rfl (by decide)

theorem sfx_keeps : ∀ ops ∈ (opss : List (List (HloOp τ sig (Elt F)))), ∀ op ∈ ops,
    ∀ w, Proc.devRef .tc (Pipeline.arrRef spec0 w) ∉ op.writes :=
  forall_of_forall ⟨keeps_0, keeps_1, keeps_2, keeps_3, keeps_4, keeps_5, keeps_6, keeps_7, keeps_8, keeps_9, keeps_10, keeps_11, keeps_12, keeps_13, keeps_14, keeps_15, keeps_16⟩

/-! ## What the lines leave at the argument array and at the result -/

/-- No line after the region writes an array of the pipeline. -/
theorem not_written (w : Fin 2) : ∀ op ∈ (opss (F := F)).flatten, Proc.devRef .tc (Pipeline.arrRef spec0 w) ∉ op.writes :=
  fun op hop => by
    obtain ⟨ops, hops, hop'⟩ := List.mem_flatten.mp hop
    exact sfx_keeps ops hops op hop' w

/-- no line after the region writes the argument array or the region's output array -/
theorem tail_arg0 (W : Valuation τ sig (Elt F)) :
    after (opss (F := F)).flatten W (main_arg0 : DevRef τ sig) = W (main_arg0 : DevRef τ sig) :=
  after_of_forall_not_mem _ _ (not_written 0)

/-- The last line: the gather of the region's output array at the index table. -/
abbrev gatherOp : HloOp τ sig (Elt F) :=
  StableHlo.binary main_v0 main_v33 main_v34 ((fun x i => Host.gather gather_S64x256x256_S32896x2_S64x32896_0_12_n_n_12_1_6411 x i) : (⟨S64x256x256, .f32⟩ : BufTy).Contents (Elt F) → (⟨S32896x2, .i32⟩ : BufTy).Contents (Elt F) → (⟨S64x32896, .f32⟩ : BufTy).Contents (Elt F))

/-- The lines before it. -/
def initOps : List (HloOp τ sig (Elt F)) := (opss (F := F)).flatten.dropLast

/-- The lines are the ones before the last, then the last. -/
theorem flatten_eq : (opss (F := F)).flatten = initOps ++ [gatherOp] := rfl

/-- So what they leave is what the gather leaves after the lines before it. -/
theorem after_flatten (V : Valuation τ sig (Elt F)) : after (opss (F := F)).flatten V = gatherOp.result (after initOps V) :=
  (congrArg (fun l => after l V) flatten_eq).trans (StableHlo.after_append initOps [gatherOp] V)

/-- The gather writes its result buffer only: there, the gathered values; at the index table, what was there. -/
theorem gather_at_v34 (V : Valuation τ sig (Elt F)) :
    (gatherOp (F := F)).result V (main_v34 : DevRef τ sig)
      = Host.gather gather_S64x256x256_S32896x2_S64x32896_0_12_n_n_12_1_6411 (V (main_v0 : DevRef τ sig)) (V (main_v33 : DevRef τ sig)) :=
  binary_result _ _ _ _ _ _ _ V
theorem gather_at_v33 (V : Valuation τ sig (Elt F)) :
    (gatherOp (F := F)).result V (main_v33 : DevRef τ sig) = V (main_v33 : DevRef τ sig) :=
  binary_result_ne _ _ _ _ _ _ _ V (by decide)

/-- The lines before the gather leave the region's output array as it was. -/
theorem init_v0 (W : Valuation τ sig (Elt F)) : after (initOps (F := F)) W (main_v0 : DevRef τ sig) = W (main_v0 : DevRef τ sig) :=
  after_of_forall_not_mem _ _ fun op hop => not_written 1 op (List.mem_of_mem_dropLast hop)

/-- the program's result: the last line gathers the region's output array at the index table the lines before it compute -/
theorem tail_result (W : Valuation τ sig (Elt F)) :
    after (opss (F := F)).flatten W (main_v34 : DevRef τ sig)
      = Host.gather gather_S64x256x256_S32896x2_S64x32896_0_12_n_n_12_1_6411 (W (main_v0 : DevRef τ sig)) (after (opss (F := F)).flatten W (main_v33 : DevRef τ sig)) := by
  rw [after_flatten, gather_at_v34, gather_at_v33, init_v0]

end Cert.KernelIdeal.Tail

end
-- ==== Proof.KFrame.lean ====
/-
  The run of the covariance program's @main: the region first, then the host lines that compute the
  upper-triangular index table and gather the region's output at it.

  The region's frame run (the pipeline library's theorem for a kernel whose @main continues with host lines) gives
  every final state: each of the pipeline's two arrays at what the library computes from the proof data — the
  argument array as launched, the output array block by block what the points wrote back —, and every other
  unscoped buffer at what the host lines after the region leave, folded over the region's result.
-/
import proofs.«151729_j47493748359314_1_alg».proof.Proof.KBody
import proofs.«151729_j47493748359314_1_alg».proof.Proof.KTail

set_option maxRecDepth 16384

noncomputable section

namespace Cert.KernelIdeal.Hand

open Cert.KernelIdeal Cert.KernelIdeal.Gen Cert.KernelIdeal.Tail
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- @main is the region continued by the host lines after it (no host line comes before it). -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [] opss (by simp only [List.Forall]) (by simp only [List.Forall]) main_chain

set_option backward.isDefEq.respectTransparency.types false in
/-- Every weakly fair execution of @main terminates, and every final state has each array of the pipeline at what the
    library computes from the proof data and every other unscoped buffer as the lines after the region leave it. -/
theorem run_main : θ_run defs (onTc (τ := τ) (main (F := F))) (s₀ m ρ)
    (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-- The argument array ends as launched: the input window stages it and never writes it back. -/
theorem kept_arg0 (r : PUnit × MemSt nD τ sig (Elt F))
    (h : Pipeline.FramePost cfgs (dats m) 0 (Pipeline.afterTail₀ cfgs (dats m) 0 (V0 m) opss) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The frame: @main runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_arg0 m r h c) (run_main m ρ)

/-- The result buffer ends at what the host lines after the region compute from the region's result: the gather of
    the output array at the index table. -/
theorem result_post (r : PUnit × MemSt nD τ sig (Elt F))
    (h : Pipeline.FramePost cfgs (dats m) 0 (Pipeline.afterTail₀ cfgs (dats m) 0 (V0 m) opss) r) (c : Dev nD) :
    r.2.mem ((c : Thread nD τ).loc main_v34)
      = Host.gather gather_S64x256x256_S32896x2_S64x32896_0_12_n_n_12_1_6411 ((dats m 0 c).arrAt 1 cfg0.N)
          (StableHlo.after (opss (F := F)).flatten
            (Pipeline.withArrays (cfgs 0).spec c (V0 m c) fun w => (dats m 0 c).arrAt w (cfgs 0).N) (main_v33 : DevRef τ sig)) := by
  refine ((h c).2 main_v34 (Pipeline.mem_restRefs_of main_v34 (by decide) (by decide))).trans ?_
  unfold Pipeline.afterTail₀
  refine (tail_result _).trans ?_
  exact congrArg (fun a => Host.gather gather_S64x256x256_S32896x2_S64x32896_0_12_n_n_12_1_6411 a _)
    (Pipeline.withArrays_arr spec0 launch0.win.arr_inj c (V0 m c) (fun w => (dats m 0 c).arrAt w (cfgs 0).N) 1)

end Cert.KernelIdeal.Hand

end
-- ==== Proof.KBodyB.lean ====
/-
  The frame run of the covariance program's one region, at any float instance.

  The region has a grid of 64 points, one per batch. At point t the body is handed the batch's 4096×256 block of the
  argument array in one staging buffer and leaves, in the output window's staging buffer, one 256×256 block: a
  single whole-buffer store of a pure function (the skeleton's payload) of the loaded block. So after the body the
  output buffer is that payload of the input block, whatever it held before; the argument's buffer is unchanged.
  From these the pipeline library computes every array after the region: the argument array as the region found
  it, the output array overwritten block by block by what each point left.
-/
import proofs.«151729_j47493748359314_1_alg».proof.Proof.Gen.Kernel.Launch
import proofs.«151729_j47493748359314_1_alg».proof.Proof.Gen.Kernel.Skeleton
import proofs.«151729_j47493748359314_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered. The region is @main's first line, so these are the
    launch contents (the fold of no host operation over them). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The argument array is found as launched. -/
theorem V_main_arg0 (c : Dev nD) : V m c main_arg0 = m ((c : Thread nD τ).loc main_arg0) := rfl

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The input window's current staging buffer holds the batch's block at every point: the window is fetched at
    every point, never cut, never idle. -/
theorem before_in_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output window's buffer -/

/-- The one rectangle the body stores through: the whole 1×256×256 buffer. -/
abbrev rOut : Rect S1x256x256 := Rect.unit (s := S1x256x256) ![0, 0, 0] S1x256x256.size inb_S1x256x256_S1x256x256_0_0_0
/-- The one rectangle the body loads the batch through: the whole 1×4096×256 buffer. -/
abbrev rIn : Rect S1x4096x256 := Rect.unit (s := S1x4096x256) ![0, 0, 0] S1x4096x256.size inb_S1x4096x256_S1x4096x256_0_0_0

/-- The output window's staging buffer after the body, from the input block: its one store read back. -/
def outBlock (x0 : Vec F S1x4096x256 .f32) : Vec F S1x256x256 .f32 :=
  View.canon [⟨rOut, k0_pay1 (View.ld x0 rIn)⟩]

/-- The one store covers the buffer. -/
theorem cover_out (p0 : Vec F S1x256x256 .f32) (y : S1x256x256.Idx) :
    ∃ pc ∈ ([⟨rOut, p0⟩] : List (View.Piece (Elt F) S1x256x256 .f32)), y ∈ pc.1.set :=
  View.cover_of_tiled [⟨rOut, p0⟩] S1x256x256.size (by rfl) y

/-! ## The body's triple -/

set_option maxHeartbeats 4000000 in
/-- The kernel body on whole staging memrefs — the input's at contents `x0`, the output's at anything — runs to the
    continuation holding the input's as it was and the output's at `outBlock x0`. -/
theorem sound_kernel (c : Dev nD) (E : Set ℕ) (i : grid0.Coords) (arg1 : Memref sig .tc .vmem S1x4096x256 .f32) (harg1 : arg1.IsWhole)
    (arg2 : Memref sig .tc .vmem S1x256x256 .f32) (harg2 : arg2.IsWhole)
    (x0 : Vec F S1x4096x256 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (outBlock x0)) -∗ K ⟨⟩))
      ⊢ wp frame (wpE (defs₀ (F := F)) Variants.none c none) E (cc0__cov_kernel i arg1 harg1 arg2 harg2) K := by
  simp only [cc0__cov_kernel_eq_skeleton]; unfold cc0__cov_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover_out _)

/-! ## The pipeline's proof data -/

/-- The proof data of the one pipeline on core `c`: the arrays as the region finds them; after the body at point
    `t` the input's buffer at the batch's block and the output's at `outBlock` of it; the class invariant; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => outBlock (iblk m c 0 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in (c : Dev nD) (t : Fin cfg0.N) : (dats m 0 c).after 0 t = iblk m c 0 t := by dsimp only [dats]
theorem after_out (c : Dev nD) (t : Fin cfg0.N) : (dats m 0 c).after 1 t = outBlock (iblk m c 0 t) := by dsimp only [dats]

theorem before_in (c : Dev nD) (t : Fin cfg0.N) (d) : (dats m 0 c).before 0 t d = iblk m c 0 t :=
  before_in_of m (dats m 0 c) (A_eq m c 0) (after_in m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t))

/-- The body at any point: the input's memref holds the batch's block, so `sound_kernel` applies; the invariant and
    the core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in]
  rw [show (dats m 0 c).Φ t.succ = (dats m 0 c).Φ t.castSucc from rfl,
    show (dats m 0 c).owesAt () t.succ = (dats m 0 c).owesAt () t.castSucc from rfl,
    after_in, after_out]
  iintro ⟨HΦ, Ho, ⟨%d0, H0⟩, ⟨%d1, H1⟩⟩
  iapply (sound_kernel c Set.univ (grid0.coords t) _ _ _ _ (iblk m c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KTailB.lean ====
import proofs.«151729_j47493748359314_1_alg».proof.Proof.Gen.Kernel.Launch
import Idealize.ShloMosaic.Lib.Pipeline.FrameSuffix
import Idealize.ShloMosaic.Lib.StableHlo.Run

/-!
# The host lines after the region

The program is one pipelined region followed by 135 host operations, printed as seventeen stretches. This module
states what the frame proof needs of them: every operation touches only references a line after the region may touch,
allocates nothing, and writes neither of the pipeline's two arrays (the argument and the region's output); hence the
argument array ends as it was, and the program's result is the gather of the region's output at the index table the
earlier lines compute.
-/

set_option maxRecDepth 4096

noncomputable section

namespace Cert.Kernel.Tail

open Cert.Kernel Cert.Kernel.Gen Idealize.ShloMosaic Idealize.ShloMosaic.TcCoe Idealize.SL.Sem Idealize.ShloMosaic.StableHlo

variable {F : FTy → Type} [FloatOps F]

/-- the host lines after the region, stretch by stretch -/
abbrev opss : List (List (HloOp τ sig (Elt F))) := [hostOps1, hostOps1_1, hostOps1_2, hostOps1_3, hostOps1_4, hostOps1_5, hostOps1_6, hostOps1_7, hostOps1_8, hostOps1_9, hostOps1_10, hostOps1_11, hostOps1_12, hostOps1_13, hostOps1_14, hostOps1_15, hostOps1_16]

/-! ## Lists of lists: a property of every operation of every stretch, stretch by stretch -/

/-- A property holding of every element of every list of a literal list of lists, given list by list. -/
theorem forall_of_forall {α : Type} {P : α → Prop} {ls : List (List α)} (h : ls.Forall fun l => l.Forall P) :
    ∀ l ∈ ls, ∀ a ∈ l, P a :=
  fun l hl => List.forall_iff_forall_mem.mp ((List.forall_iff_forall_mem.mp h) l hl)

/-! ## Every operation stays within the references a line after the region may touch -/

/-- With nothing prefetched those references are all the unscoped ones, and each operation's buffers are unscoped
    TensorCore references. -/
theorem sfx_sub : ∀ ops ∈ (opss : List (List (HloOp τ sig (Elt F)))), ∀ op ∈ ops,
    op.bufs ⊆ Pipeline.tailRefs sig Pipeline.Prefetch.none spec0 := by
  rw [Pipeline.tailRefs_none spec0 launch0.win.arr_unscoped]
  have key : ∀ ops : List (HloOp τ sig (Elt F)), (ops.Forall fun op => op.bufs ⊆ StableHlo.tcRefs τ sig) →
      ops.Forall fun op => op.bufs ⊆ Pipeline.ucRefs τ sig := fun ops h =>
    List.forall_iff_forall_mem.mpr fun op hop => Pipeline.sub_ucRefs op ((List.forall_iff_forall_mem.mp h) op hop)
  exact forall_of_forall ⟨key _ hostOps1_sub, key _ hostOps1_1_sub, key _ hostOps1_2_sub, key _ hostOps1_3_sub, key _ hostOps1_4_sub, key _ hostOps1_5_sub, key _ hostOps1_6_sub, key _ hostOps1_7_sub, key _ hostOps1_8_sub, key _ hostOps1_9_sub, key _ hostOps1_10_sub, key _ hostOps1_11_sub, key _ hostOps1_12_sub, key _ hostOps1_13_sub, key _ hostOps1_14_sub, key _ hostOps1_15_sub, key _ hostOps1_16_sub⟩

/-! ## No operation allocates -/

theorem fresh_0 : (hostOps1 : List (HloOp τ sig (Elt F))).Forall fun op => op.fresh = ∅ := by
  simp only [List.Forall]; repeat' constructor
theorem fresh_1 : (hostOps1_1 : List (HloOp τ sig (Elt F))).Forall fun op => op.fresh = ∅ := by
  simp only [List.Forall]; repeat' constructor
theorem fresh_2 : (hostOps1_2 : List (HloOp τ sig (Elt F))).Forall fun op => op.fresh = ∅ := by
  simp only [List.Forall]; repeat' constructor
theorem fresh_3 : (hostOps1_3 : List (HloOp τ sig (Elt F))).Forall fun op => op.fresh = ∅ := by
  simp only [List.Forall]; repeat' constructor
theorem fresh_4 : (hostOps1_4 : List (HloOp τ sig (Elt F))).Forall fun op => op.fresh = ∅ := by
  simp only [List.Forall]; repeat' constructor
theorem fresh_5 : (hostOps1_5 : List (HloOp τ sig (Elt F))).Forall fun op => op.fresh = ∅ := by
  simp only [List.Forall]; repeat' constructor
theorem fresh_6 : (hostOps1_6 : List (HloOp τ sig (Elt F))).Forall fun op => op.fresh = ∅ := by
  simp only [List.Forall]; repeat' constructor
theorem fresh_7 : (hostOps1_7 : List (HloOp τ sig (Elt F))).Forall fun op => op.fresh = ∅ := by
  simp only [List.Forall]; repeat' constructor
theorem fresh_8 : (hostOps1_8 : List (HloOp τ sig (Elt F))).Forall fun op => op.fresh = ∅ := by
  simp only [List.Forall]; repeat' constructor
theorem fresh_9 : (hostOps1_9 : List (HloOp τ sig (Elt F))).Forall fun op => op.fresh = ∅ := by
  simp only [List.Forall]; repeat' constructor
theorem fresh_10 : (hostOps1_10 : List (HloOp τ sig (Elt F))).Forall fun op => op.fresh = ∅ := by
  simp only [List.Forall]; repeat' constructor
theorem fresh_11 : (hostOps1_11 : List (HloOp τ sig (Elt F))).Forall fun op => op.fresh = ∅ := by
  simp only [List.Forall]; repeat' constructor
theorem fresh_12 : (hostOps1_12 : List (HloOp τ sig (Elt F))).Forall fun op => op.fresh = ∅ := by
  simp only [List.Forall]; repeat' constructor
theorem fresh_13 : (hostOps1_13 : List (HloOp τ sig (Elt F))).Forall fun op => op.fresh = ∅ := by
  simp only [List.Forall]; repeat' constructor
theorem fresh_14 : (hostOps1_14 : List (HloOp τ sig (Elt F))).Forall fun op => op.fresh = ∅ := by
  simp only [List.Forall]; repeat' constructor
theorem fresh_15 : (hostOps1_15 : List (HloOp τ sig (Elt F))).Forall fun op => op.fresh = ∅ := by
  simp only [List.Forall]; repeat' constructor
theorem fresh_16 : (hostOps1_16 : List (HloOp τ sig (Elt F))).Forall fun op => op.fresh = ∅ := by
  simp only [List.Forall]; repeat' constructor

theorem sfx_fresh : ∀ ops ∈ (opss : List (List (HloOp τ sig (Elt F)))), ∀ op ∈ ops, op.fresh = ∅ :=
  forall_of_forall ⟨fresh_0, fresh_1, fresh_2, fresh_3, fresh_4, fresh_5, fresh_6, fresh_7, fresh_8, fresh_9, fresh_10, fresh_11, fresh_12, fresh_13, fresh_14, fresh_15, fresh_16⟩

/-! ## No operation writes an array of the pipeline

Each operation writes exactly its own result buffer, and no result buffer is the argument array or the region's
output array. -/

/-- An operation whose only written buffer is `y`, `y` being no array of the pipeline, writes no array of it. -/
theorem keep {op : HloOp τ sig (Elt F)} {y : Ref sig .tc} (hw : op.writes = {Proc.devRef .tc y})
    (h : ∀ w, Pipeline.arrRef spec0 w ≠ y) : ∀ w, Proc.devRef .tc (Pipeline.arrRef spec0 w) ∉ op.writes := by
  intro w hm
  rw [hw, Finset.mem_singleton] at hm
  exact StableHlo.devRef_ne_of_ne (h w) hm

theorem keeps_0 : (hostOps1 : List (HloOp τ sig (Elt F))).Forall fun op =>
    ∀ w, Proc.devRef .tc (Pipeline.arrRef spec0 w) ∉ op.writes := by
  simp only [List.Forall]; repeat' constructor
  all_goals exact keep rfl (by decide)
theorem keeps_1 : (hostOps1_1 : List (HloOp τ sig (Elt F))).Forall fun op =>
    ∀ w, Proc.devRef .tc (Pipeline.arrRef spec0 w) ∉ op.writes := by
  simp only [List.Forall]; repeat' constructor
  all_goals exact keep rfl (by decide)
theorem keeps_2 : (hostOps1_2 : List (HloOp τ sig (Elt F))).Forall fun op =>
    ∀ w, Proc.devRef .tc (Pipeline.arrRef spec0 w) ∉ op.writes := by
  simp only [List.Forall]; repeat' constructor
  all_goals exact keep rfl (by decide)
theorem keeps_3 : (hostOps1_3 : List (HloOp τ sig (Elt F))).Forall fun op =>
    ∀ w, Proc.devRef .tc (Pipeline.arrRef spec0 w) ∉ op.writes := by
  simp only [List.Forall]; repeat' constructor
  all_goals exact keep rfl (by decide)
theorem keeps_4 : (hostOps1_4 : List (HloOp τ sig (Elt F))).Forall fun op =>
    ∀ w, Proc.devRef .tc (Pipeline.arrRef spec0 w) ∉ op.writes := by
  simp only [List.Forall]; repeat' constructor
  all_goals exact keep rfl (by decide)
theorem keeps_5 : (hostOps1_5 : List (HloOp τ sig (Elt F))).Forall fun op =>
    ∀ w, Proc.devRef .tc (Pipeline.arrRef spec0 w) ∉ op.writes := by
  simp only [List.Forall]; repeat' constructor
  all_goals exact keep rfl (by decide)
theorem keeps_6 : (hostOps1_6 : List (HloOp τ sig (Elt F))).Forall fun op =>
    ∀ w, Proc.devRef .tc (Pipeline.arrRef spec0 w) ∉ op.writes := by
  simp only [List.Forall]; repeat' constructor
  all_goals exact keep rfl (by decide)
theorem keeps_7 : (hostOps1_7 : List (HloOp τ sig (Elt F))).Forall fun op =>
    ∀ w, Proc.devRef .tc (Pipeline.arrRef spec0 w) ∉ op.writes := by
  simp only [List.Forall]; repeat' constructor
  all_goals exact keep rfl (by decide)
theorem keeps_8 : (hostOps1_8 : List (HloOp τ sig (Elt F))).Forall fun op =>
    ∀ w, Proc.devRef .tc (Pipeline.arrRef spec0 w) ∉ op.writes := by
  simp only [List.Forall]; repeat' constructor
  all_goals exact keep rfl (by decide)
theorem keeps_9 : (hostOps1_9 : List (HloOp τ sig (Elt F))).Forall fun op =>
    ∀ w, Proc.devRef .tc (Pipeline.arrRef spec0 w) ∉ op.writes := by
  simp only [List.Forall]; repeat' constructor
  all_goals exact keep rfl (by decide)
theorem keeps_10 : (hostOps1_10 : List (HloOp τ sig (Elt F))).Forall fun op =>
    ∀ w, Proc.devRef .tc (Pipeline.arrRef spec0 w) ∉ op.writes := by
  simp only [List.Forall]; repeat' constructor
  all_goals exact keep rfl (by decide)
theorem keeps_11 : (hostOps1_11 : List (HloOp τ sig (Elt F))).Forall fun op =>
    ∀ w, Proc.devRef .tc (Pipeline.arrRef spec0 w) ∉ op.writes := by
  simp only [List.Forall]; repeat' constructor
  all_goals exact keep rfl (by decide)
theorem keeps_12 : (hostOps1_12 : List (HloOp τ sig (Elt F))).Forall fun op =>
    ∀ w, Proc.devRef .tc (Pipeline.arrRef spec0 w) ∉ op.writes := by
  simp only [List.Forall]; repeat' constructor
  all_goals exact keep rfl (by decide)
theorem keeps_13 : (hostOps1_13 : List (HloOp τ sig (Elt F))).Forall fun op =>
    ∀ w, Proc.devRef .tc (Pipeline.arrRef spec0 w) ∉ op.writes := by
  simp only [List.Forall]; repeat' constructor
  all_goals exact keep rfl (by decide)
theorem keeps_14 : (hostOps1_14 : List (HloOp τ sig (Elt F))).Forall fun op =>
    ∀ w, Proc.devRef .tc (Pipeline.arrRef spec0 w) ∉ op.writes := by
  simp only [List.Forall]; repeat' constructor
  all_goals exact keep rfl (by decide)
theorem keeps_15 : (hostOps1_15 : List (HloOp τ sig (Elt F))).Forall fun op =>
    ∀ w, Proc.devRef .tc (Pipeline.arrRef spec0 w) ∉ op.writes := by
  simp only [List.Forall]; repeat' constructor
  all_goals exact keep rfl (by decide)
theorem keeps_16 : (hostOps1_16 : List (HloOp τ sig (Elt F))).Forall fun op =>
    ∀ w, Proc.devRef .tc (Pipeline.arrRef spec0 w) ∉ op.writes := by
  simp only [List.Forall]; repeat' constructor
  all_goals exact keep rfl (by decide)

theorem sfx_keeps : ∀ ops ∈ (opss : List (List (HloOp τ sig (Elt F)))), ∀ op ∈ ops,
    ∀ w, Proc.devRef .tc (Pipeline.arrRef spec0 w) ∉ op.writes :=
  forall_of_forall ⟨keeps_0, keeps_1, keeps_2, keeps_3, keeps_4, keeps_5, keeps_6, keeps_7, keeps_8, keeps_9, keeps_10, keeps_11, keeps_12, keeps_13, keeps_14, keeps_15, keeps_16⟩

/-! ## What the lines leave at the argument array and at the result -/

/-- No line after the region writes an array of the pipeline. -/
theorem not_written (w : Fin 2) : ∀ op ∈ (opss (F := F)).flatten, Proc.devRef .tc (Pipeline.arrRef spec0 w) ∉ op.writes :=
  fun op hop => by
    obtain ⟨ops, hops, hop'⟩ := List.mem_flatten.mp hop
    exact sfx_keeps ops hops op hop' w

/-- no line after the region writes the argument array or the region's output array -/
theorem tail_arg0 (W : Valuation τ sig (Elt F)) :
    after (opss (F := F)).flatten W (main_arg0 : DevRef τ sig) = W (main_arg0 : DevRef τ sig) :=
  after_of_forall_not_mem _ _ (not_written 0)

/-- The last line: the gather of the region's output array at the index table. -/
abbrev gatherOp : HloOp τ sig (Elt F) :=
  StableHlo.binary main_v0 main_v33 main_v34 ((fun x i => Host.gather gather_S64x256x256_S32896x2_S64x32896_0_12_n_n_12_1_6411 x i) : (⟨S64x256x256, .f32⟩ : BufTy).Contents (Elt F) → (⟨S32896x2, .i32⟩ : BufTy).Contents (Elt F) → (⟨S64x32896, .f32⟩ : BufTy).Contents (Elt F))

/-- The lines before it. -/
def initOps : List (HloOp τ sig (Elt F)) := (opss (F := F)).flatten.dropLast

/-- The lines are the ones before the last, then the last. -/
theorem flatten_eq : (opss (F := F)).flatten = initOps ++ [gatherOp] := rfl

/-- So what they leave is what the gather leaves after the lines before it. -/
theorem after_flatten (V : Valuation τ sig (Elt F)) : after (opss (F := F)).flatten V = gatherOp.result (after initOps V) :=
  (congrArg (fun l => after l V) flatten_eq).trans (StableHlo.after_append initOps [gatherOp] V)

/-- The gather writes its result buffer only: there, the gathered values; at the index table, what was there. -/
theorem gather_at_v34 (V : Valuation τ sig (Elt F)) :
    (gatherOp (F := F)).result V (main_v34 : DevRef τ sig)
      = Host.gather gather_S64x256x256_S32896x2_S64x32896_0_12_n_n_12_1_6411 (V (main_v0 : DevRef τ sig)) (V (main_v33 : DevRef τ sig)) :=
  binary_result _ _ _ _ _ _ _ V
theorem gather_at_v33 (V : Valuation τ sig (Elt F)) :
    (gatherOp (F := F)).result V (main_v33 : DevRef τ sig) = V (main_v33 : DevRef τ sig) :=
  binary_result_ne _ _ _ _ _ _ _ V (by decide)

/-- The lines before the gather leave the region's output array as it was. -/
theorem init_v0 (W : Valuation τ sig (Elt F)) : after (initOps (F := F)) W (main_v0 : DevRef τ sig) = W (main_v0 : DevRef τ sig) :=
  after_of_forall_not_mem _ _ fun op hop => not_written 1 op (List.mem_of_mem_dropLast hop)

/-- the program's result: the last line gathers the region's output array at the index table the lines before it compute -/
theorem tail_result (W : Valuation τ sig (Elt F)) :
    after (opss (F := F)).flatten W (main_v34 : DevRef τ sig)
      = Host.gather gather_S64x256x256_S32896x2_S64x32896_0_12_n_n_12_1_6411 (W (main_v0 : DevRef τ sig)) (after (opss (F := F)).flatten W (main_v33 : DevRef τ sig)) := by
  rw [after_flatten, gather_at_v34, gather_at_v33, init_v0]

end Cert.Kernel.Tail

end
-- ==== Proof.KFrameB.lean ====
/-
  The run of the covariance program's @main: the region first, then the host lines that compute the
  upper-triangular index table and gather the region's output at it.

  The region's frame run (the pipeline library's theorem for a kernel whose @main continues with host lines) gives
  every final state: each of the pipeline's two arrays at what the library computes from the proof data — the
  argument array as launched, the output array block by block what the points wrote back —, and every other
  unscoped buffer at what the host lines after the region leave, folded over the region's result.
-/
import proofs.«151729_j47493748359314_1_alg».proof.Proof.KBodyB
import proofs.«151729_j47493748359314_1_alg».proof.Proof.KTailB

set_option maxRecDepth 16384

noncomputable section

namespace Cert.Kernel.Hand

open Cert.Kernel Cert.Kernel.Gen Cert.Kernel.Tail
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-- @main is the region continued by the host lines after it (no host line comes before it). -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((opss (F := F)).map StableHlo.seq)) :=
  Pipeline.hmain_around cfgs 0 defs₀ 𝒱₀ m main [] opss (by simp only [List.Forall]) (by simp only [List.Forall]) main_chain

set_option backward.isDefEq.respectTransparency.types false in
/-- Every weakly fair execution of @main terminates, and every final state has each array of the pipeline at what the
    library computes from the proof data and every other unscoped buffer as the lines after the region leave it. -/
theorem run_main : θ_run defs (onTc (τ := τ) (main (F := F))) (s₀ m ρ)
    (Pipeline.FramePost cfgs (dats m) 0 (Pipeline.afterTail₀ cfgs (dats m) 0 (V0 m) opss)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := opss) (hsub := sfx_sub) (hfresh := sfx_fresh) (hkeep := sfx_keeps)
    (hmain := hmain m Variants.none) (hA := A_eq m) (hΦ := fun _ _ => rfl)

/-- The argument array ends as launched: the input window stages it and never writes it back. -/
theorem kept_arg0 (r : PUnit × MemSt nD τ sig (Elt F))
    (h : Pipeline.FramePost cfgs (dats m) 0 (Pipeline.afterTail₀ cfgs (dats m) 0 (V0 m) opss) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- The frame: @main runs to the end, faults nowhere, and leaves its argument array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_arg0 m r h c) (run_main m ρ)

/-- The result buffer ends at what the host lines after the region compute from the region's result: the gather of
    the output array at the index table. -/
theorem result_post (r : PUnit × MemSt nD τ sig (Elt F))
    (h : Pipeline.FramePost cfgs (dats m) 0 (Pipeline.afterTail₀ cfgs (dats m) 0 (V0 m) opss) r) (c : Dev nD) :
    r.2.mem ((c : Thread nD τ).loc main_v34)
      = Host.gather gather_S64x256x256_S32896x2_S64x32896_0_12_n_n_12_1_6411 ((dats m 0 c).arrAt 1 cfg0.N)
          (StableHlo.after (opss (F := F)).flatten
            (Pipeline.withArrays (cfgs 0).spec c (V0 m c) fun w => (dats m 0 c).arrAt w (cfgs 0).N) (main_v33 : DevRef τ sig)) := by
  refine ((h c).2 main_v34 (Pipeline.mem_restRefs_of main_v34 (by decide) (by decide))).trans ?_
  unfold Pipeline.afterTail₀
  refine (tail_result _).trans ?_
  exact congrArg (fun a => Host.gather gather_S64x256x256_S32896x2_S64x32896_0_12_n_n_12_1_6411 a _)
    (Pipeline.withArrays_arr spec0 launch0.win.arr_inj c (V0 m c) (fun w => (dats m 0 c).arrAt w (cfgs 0).N) 1)

end Cert.Kernel.Hand

end
-- ==== Proof.RefCovTerm.lean ====
/-
  The reference's covariance stage as one term: the host operations from the argument array to the batched
  covariance, composed. For a batch b and columns d, e it is
  (sum over n of (x[b,n,d] - mean[b,d]) * (x[b,n,e] - mean[b,e])) / 4096 with mean[b,d] = (0 + sum over n of x[b,n,d]) / 4096.
-/
import proofs.«151729_j47493748359314_1_alg».proof.ReferenceIdeal
import proofs.«151729_j47493748359314_1_alg».proof.Proof.Gen.ReferenceIdeal
import Idealize.ShloMosaic.PureOps.Ideal

noncomputable section

namespace Cert.ReferenceIdeal.Hand

open Idealize.ShloMosaic Cert.ReferenceIdeal Cert.ReferenceIdeal.Gen

/-- The column means of every batch, kept with a unit middle axis: the sum along the sample axis over 4096. -/
def meanRef (x : FVec Ideal S64x4096x256 .f32) : FVec Ideal S64x1x256 .f32 :=
  Host.divf (F := Ideal)
    (broadcastInDim S64x1x256 ![0, 2] bcast_S64x256_S64x1x256_0_2
      (Host.reduceAdd (F := Ideal) x (constant (F := Ideal) S_ .f32 0x00000000#32) reducesTo_S64x4096x256_S64x256_d1 h_S_))
    (broadcastInDim S64x1x256 ![] bcast_S_S64x1x256 (constant (F := Ideal) S_ .f32 0x45800000#32))

/-- The centred samples. -/
def centredRef (x : FVec Ideal S64x4096x256 .f32) : FVec Ideal S64x4096x256 .f32 :=
  subf x (broadcastInDim S64x4096x256 ![0, 1, 2] bcast_S64x1x256_S64x4096x256_0_1_2 (meanRef x))

/-- The batched population covariance as the reference computes it. -/
def covRef (x : FVec Ideal S64x4096x256 .f32) : FVec Ideal S64x256x256 .f32 :=
  Host.divf (F := Ideal)
    (Host.dotGeneral dot_S64x4096x256_S64x4096x256_S64x256x256_1_1_2_2_0_0 none (centredRef x) (centredRef x))
    (broadcastInDim S64x256x256 ![] bcast_S_S64x256x256 (constant (F := Ideal) S_ .f32 0x45800000#32))

end Cert.ReferenceIdeal.Hand

end
-- ==== Proof.RefRun.lean ====
/-
  The reference program's entry function as one straight line of host operations, and its run.

  The reference computes, for each of 64 batches, the population covariance of 4096 samples of a 256-vector
  (column means, centring, a batched product of the centred samples with themselves contracted over the sample
  axis, division by 4096), and then gathers the entries on and above the diagonal: the positions of the non-zero
  entries of an upper-triangular mask of ones, found by a running count of the mask and a scatter of ones at the
  counts followed by a second running count, are split into a row and a column by floor division and remainder
  by 256, and the covariance is gathered at those pairs.

  Every helper function the program calls executes its body on the operands, so the entry function is the
  list below: each call replaced by the callee's operations over that call's own buffers, nested calls
  likewise, in program order; the last operation is the gather. From any launch contents every fair execution
  terminates with each buffer at the fold of the operations' results over the launch contents.
-/
import proofs.«151729_j47493748359314_1_alg».proof.Proof.RefCovTerm
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The entry function's 147 operations in program order, the calls replaced by their bodies: the covariance
    (12), the mask of ones and its upper triangle (11), the comparison with zero and the running count of the
    flattened mask (8), the zero vector scattered into, the clamp of the counts at zero and their wrap into range
    (13), the counts as a column, the scatter of ones and the second running count (7), the floor division by 256
    (17), the remainder of its result by 256 (22), the floor division by 1 (17), the remainder of that by 256 (22),
    the two wraps into range and the index pairs (17), and the gather. -/
abbrev ops : List (HloOp τ sig (Elt F)) :=
  [ StableHlo.nullary main_cst (constant S_ .f32 0x00000000#32),
    StableHlo.binary main_arg0 main_cst main_v0 ((fun x v => Host.reduceAdd x v reducesTo_S64x4096x256_S64x256_d1 h_S_) : (⟨S64x4096x256, .f32⟩ : BufTy).Contents (Elt F) → (⟨S_, .f32⟩ : BufTy).Contents (Elt F) → (⟨S64x256, .f32⟩ : BufTy).Contents (Elt F)),
    StableHlo.unary main_v0 main_v1 (broadcastInDim S64x1x256 ![0, 2] bcast_S64x256_S64x1x256_0_2 : (⟨S64x256, .f32⟩ : BufTy).Contents (Elt F) → (⟨S64x1x256, .f32⟩ : BufTy).Contents (Elt F)),
    StableHlo.nullary main_cst_0 (constant S_ .f32 0x45800000#32),
    StableHlo.unary main_cst_0 main_v2 (broadcastInDim S64x1x256 ![] bcast_S_S64x1x256 : (⟨S_, .f32⟩ : BufTy).Contents (Elt F) → (⟨S64x1x256, .f32⟩ : BufTy).Contents (Elt F)),
    StableHlo.binary main_v1 main_v2 main_v3 (Host.divf : (⟨S64x1x256, .f32⟩ : BufTy).Contents (Elt F) → (⟨S64x1x256, .f32⟩ : BufTy).Contents (Elt F) → (⟨S64x1x256, .f32⟩ : BufTy).Contents (Elt F)),
    StableHlo.unary main_v3 main_v4 (broadcastInDim S64x4096x256 ![0, 1, 2] bcast_S64x1x256_S64x4096x256_0_1_2 : (⟨S64x1x256, .f32⟩ : BufTy).Contents (Elt F) → (⟨S64x4096x256, .f32⟩ : BufTy).Contents (Elt F)),
    StableHlo.binary main_arg0 main_v4 main_v5 (subf : (⟨S64x4096x256, .f32⟩ : BufTy).Contents (Elt F) → (⟨S64x4096x256, .f32⟩ : BufTy).Contents (Elt F) → (⟨S64x4096x256, .f32⟩ : BufTy).Contents (Elt F)),
    StableHlo.binary main_v5 main_v5 main_v6 ((fun l r => Host.dotGeneral dot_S64x4096x256_S64x4096x256_S64x256x256_1_1_2_2_0_0 none l r) : (⟨S64x4096x256, .f32⟩ : BufTy).Contents (Elt F) → (⟨S64x4096x256, .f32⟩ : BufTy).Contents (Elt F) → (⟨S64x256x256, .f32⟩ : BufTy).Contents (Elt F)),
    StableHlo.nullary main_cst_1 (constant S_ .f32 0x45800000#32),
    StableHlo.unary main_cst_1 main_v7 (broadcastInDim S64x256x256 ![] bcast_S_S64x256x256 : (⟨S_, .f32⟩ : BufTy).Contents (Elt F) → (⟨S64x256x256, .f32⟩ : BufTy).Contents (Elt F)),
    StableHlo.binary main_v6 main_v7 main_v8 (Host.divf : (⟨S64x256x256, .f32⟩ : BufTy).Contents (Elt F) → (⟨S64x256x256, .f32⟩ : BufTy).Contents (Elt F) → (⟨S64x256x256, .f32⟩ : BufTy).Contents (Elt F)),
    StableHlo.nullary main_cst_2 (constant S_ .f32 0x3F800000#32),
    StableHlo.unary main_cst_2 main_v9 (broadcastInDim S256x256 ![] bcast_S_S256x256 : (⟨S_, .f32⟩ : BufTy).Contents (Elt F) → (⟨S256x256, .f32⟩ : BufTy).Contents (Elt F)),
    StableHlo.TRef.nullary main_call0.v0 (iotaInDim S256x256 32 0),
    StableHlo.TRef.nullary main_call0.c (constantI S_ 32 4294967295#32),
    StableHlo.TRef.unary main_call0.c main_call0.v1 (broadcastInDim S256x256 ![] bcast_S_S256x256),
    StableHlo.TRef.binary main_call0.v0 main_call0.v1 main_call0.v2 addi,
    StableHlo.TRef.nullary main_call0.v3 (iotaInDim S256x256 32 1),
    StableHlo.TRef.binary main_call0.v2 main_call0.v3 main_call0.v4 (cmpi .sge),
    StableHlo.TRef.nullary main_call0.cst (constant S_ .f32 0x00000000#32),
    StableHlo.TRef.unary main_call0.cst main_call0.v5 (broadcastInDim S256x256 ![] bcast_S_S256x256),
    StableHlo.TRef.ternary main_call0.v4 main_call0.v5 (.of main_v9 : StableHlo.TRef sig ⟨S256x256, .f32⟩) main_call0.v6 select,
    StableHlo.nullary main_cst_3 (constant S_ .f32 0x00000000#32),
    StableHlo.unary main_cst_3 main_v11 (broadcastInDim S256x256 ![] bcast_S_S256x256 : (⟨S_, .f32⟩ : BufTy).Contents (Elt F) → (⟨S256x256, .f32⟩ : BufTy).Contents (Elt F)),
    StableHlo.binary main_v10 main_v11 main_v12 (cmpf .une : (⟨S256x256, .f32⟩ : BufTy).Contents (Elt F) → (⟨S256x256, .f32⟩ : BufTy).Contents (Elt F) → (⟨S256x256, .i1⟩ : BufTy).Contents (Elt F)),
    StableHlo.TRef.reshape (.of main_v12 : StableHlo.TRef sig ⟨S256x256, .i1⟩) main_call1.v0 rfl shapeCasts_S256x256_S65536,
    StableHlo.TRef.unary main_call1.v0 main_call1.v1 (extui 32 · natLt_1_32),
    StableHlo.TRef.nullary main_call1.call0.c (constantI S_ 32 0#32),
    StableHlo.TRef.unary main_call1.call0.c main_call1.call0.v0 (broadcastInDim S_ ![] bcast_S_S_),
    StableHlo.TRef.binary main_call1.v1 main_call1.call0.v0 main_call1.call0.v1 (fun x v => Host.reduceWindow IntOp.addi ![65536] ![1] ![65535] ![0] x v reduceWindows_S65536_S65536_w65536s1p65535_0 h_S_),
    StableHlo.nullary main_c (constantI S_ 32 0#32),
    StableHlo.unary main_c main_v14 (broadcastInDim S32896 ![] bcast_S_S32896 : (⟨S_, .i32⟩ : BufTy).Contents (Elt F) → (⟨S32896, .i32⟩ : BufTy).Contents (Elt F)),
    StableHlo.nullary main_c_4 (constantI S_ 32 0#32),
    StableHlo.TRef.unary (.of main_c_4 : StableHlo.TRef sig ⟨S_, .i32⟩) main_call2.v0 id,
    StableHlo.TRef.unary main_call2.v0 main_call2.v1 (broadcastInDim S65536 ![] bcast_S_S65536),
    StableHlo.TRef.binary main_call2.v1 (.of main_v13 : StableHlo.TRef sig ⟨S65536, .i32⟩) main_call2.v2 maxsi,
    StableHlo.nullary main_c_5 (constantI S_ 32 0#32),
    StableHlo.unary main_c_5 main_v16 (broadcastInDim S65536 ![] bcast_S_S65536 : (⟨S_, .i32⟩ : BufTy).Contents (Elt F) → (⟨S65536, .i32⟩ : BufTy).Contents (Elt F)),
    StableHlo.binary main_v15 main_v16 main_v17 (cmpi .slt : (⟨S65536, .i32⟩ : BufTy).Contents (Elt F) → (⟨S65536, .i32⟩ : BufTy).Contents (Elt F) → (⟨S65536, .i1⟩ : BufTy).Contents (Elt F)),
    StableHlo.nullary main_c_6 (constantI S_ 32 32896#32),
    StableHlo.unary main_c_6 main_v18 (broadcastInDim S65536 ![] bcast_S_S65536 : (⟨S_, .i32⟩ : BufTy).Contents (Elt F) → (⟨S65536, .i32⟩ : BufTy).Contents (Elt F)),
    StableHlo.binary main_v15 main_v18 main_v19 (addi : (⟨S65536, .i32⟩ : BufTy).Contents (Elt F) → (⟨S65536, .i32⟩ : BufTy).Contents (Elt F) → (⟨S65536, .i32⟩ : BufTy).Contents (Elt F)),
    StableHlo.ternary main_v17 main_v19 main_v15 main_v20 (select : (⟨S65536, .i1⟩ : BufTy).Contents (Elt F) → (⟨S65536, .i32⟩ : BufTy).Contents (Elt F) → (⟨S65536, .i32⟩ : BufTy).Contents (Elt F) → (⟨S65536, .i32⟩ : BufTy).Contents (Elt F)),
    StableHlo.unary main_v20 main_v21 (broadcastInDim S65536x1 ![0] bcast_S65536_S65536x1_0 : (⟨S65536, .i32⟩ : BufTy).Contents (Elt F) → (⟨S65536x1, .i32⟩ : BufTy).Contents (Elt F)),
    StableHlo.nullary main_c_7 (constantI S_ 32 1#32),
    StableHlo.unary main_c_7 main_v22 (broadcastInDim S65536 ![] bcast_S_S65536 : (⟨S_, .i32⟩ : BufTy).Contents (Elt F) → (⟨S65536, .i32⟩ : BufTy).Contents (Elt F)),
    StableHlo.ternary main_v14 main_v21 main_v22 main_v23 ((fun x i u => Host.scatter scatter_S32896_S65536x1_S65536_n_0_0_1 IntOp.addi x i u) : (⟨S32896, .i32⟩ : BufTy).Contents (Elt F) → (⟨S65536x1, .i32⟩ : BufTy).Contents (Elt F) → (⟨S65536, .i32⟩ : BufTy).Contents (Elt F) → (⟨S32896, .i32⟩ : BufTy).Contents (Elt F)),
    StableHlo.TRef.nullary main_call3.call0.c (constantI S_ 32 0#32),
    StableHlo.TRef.unary main_call3.call0.c main_call3.call0.v0 (broadcastInDim S_ ![] bcast_S_S_),
    StableHlo.TRef.binary (.of main_v23 : StableHlo.TRef sig ⟨S32896, .i32⟩) main_call3.call0.v0 main_call3.call0.v1 (fun x v => Host.reduceWindow IntOp.addi ![32896] ![1] ![32895] ![0] x v reduceWindows_S32896_S32896_w32896s1p32895_0 h_S_),
    StableHlo.nullary main_c_8 (constantI S_ 32 256#32),
    StableHlo.TRef.unary (.of main_c_8 : StableHlo.TRef sig ⟨S_, .i32⟩) main_call4.v0 (broadcastInDim S32896 ![] bcast_S_S32896),
    StableHlo.TRef.binary (.of main_v24 : StableHlo.TRef sig ⟨S32896, .i32⟩) main_call4.v0 main_call4.v1 Host.divsi,
    StableHlo.TRef.unary (.of main_v24 : StableHlo.TRef sig ⟨S32896, .i32⟩) main_call4.v2 signi,
    StableHlo.TRef.unary (.of main_c_8 : StableHlo.TRef sig ⟨S_, .i32⟩) main_call4.v3 signi,
    StableHlo.TRef.unary main_call4.v3 main_call4.v4 (broadcastInDim S32896 ![] bcast_S_S32896),
    StableHlo.TRef.binary main_call4.v2 main_call4.v4 main_call4.v5 (cmpi .ne),
    StableHlo.TRef.unary (.of main_c_8 : StableHlo.TRef sig ⟨S_, .i32⟩) main_call4.v6 (broadcastInDim S32896 ![] bcast_S_S32896),
    StableHlo.TRef.binary (.of main_v24 : StableHlo.TRef sig ⟨S32896, .i32⟩) main_call4.v6 main_call4.v7 Host.remsi,
    StableHlo.TRef.nullary main_call4.c (constantI S_ 32 0#32),
    StableHlo.TRef.unary main_call4.c main_call4.v8 (broadcastInDim S32896 ![] bcast_S_S32896),
    StableHlo.TRef.binary main_call4.v7 main_call4.v8 main_call4.v9 (cmpi .ne),
    StableHlo.TRef.binary main_call4.v5 main_call4.v9 main_call4.v10 andi,
    StableHlo.TRef.nullary main_call4.c_0 (constantI S_ 32 1#32),
    StableHlo.TRef.unary main_call4.c_0 main_call4.v11 (broadcastInDim S32896 ![] bcast_S_S32896),
    StableHlo.TRef.binary main_call4.v1 main_call4.v11 main_call4.v12 subi,
    StableHlo.TRef.ternary main_call4.v10 main_call4.v12 main_call4.v1 main_call4.call0.v0 select,
    StableHlo.nullary main_c_9 (constantI S_ 32 256#32),
    StableHlo.TRef.unary (.of main_c_9 : StableHlo.TRef sig ⟨S_, .i32⟩) main_call5.v0 id,
    StableHlo.TRef.nullary main_call5.c (constantI S_ 32 0#32),
    StableHlo.TRef.binary main_call5.v0 main_call5.c main_call5.v1 (cmpi .eq),
    StableHlo.TRef.nullary main_call5.c_0 (constantI S_ 32 1#32),
    StableHlo.TRef.ternary main_call5.v1 main_call5.c_0 main_call5.v0 main_call5.call0.v0 select,
    StableHlo.TRef.unary main_call5.call0.v0 main_call5.v3 (broadcastInDim S32896 ![] bcast_S_S32896),
    StableHlo.TRef.binary (.of main_v25 : StableHlo.TRef sig ⟨S32896, .i32⟩) main_call5.v3 main_call5.v4 Host.remsi,
    StableHlo.TRef.nullary main_call5.c_1 (constantI S_ 32 0#32),
    StableHlo.TRef.unary main_call5.c_1 main_call5.v5 (broadcastInDim S32896 ![] bcast_S_S32896),
    StableHlo.TRef.binary main_call5.v4 main_call5.v5 main_call5.v6 (cmpi .ne),
    StableHlo.TRef.nullary main_call5.c_2 (constantI S_ 32 0#32),
    StableHlo.TRef.unary main_call5.c_2 main_call5.v7 (broadcastInDim S32896 ![] bcast_S_S32896),
    StableHlo.TRef.binary main_call5.v4 main_call5.v7 main_call5.v8 (cmpi .slt),
    StableHlo.TRef.nullary main_call5.c_3 (constantI S_ 32 0#32),
    StableHlo.TRef.binary main_call5.call0.v0 main_call5.c_3 main_call5.v9 (cmpi .slt),
    StableHlo.TRef.unary main_call5.v9 main_call5.v10 (broadcastInDim S32896 ![] bcast_S_S32896),
    StableHlo.TRef.binary main_call5.v8 main_call5.v10 main_call5.v11 (cmpi .ne),
    StableHlo.TRef.binary main_call5.v11 main_call5.v6 main_call5.v12 andi,
    StableHlo.TRef.unary main_call5.call0.v0 main_call5.v13 (broadcastInDim S32896 ![] bcast_S_S32896),
    StableHlo.TRef.binary main_call5.v4 main_call5.v13 main_call5.v14 addi,
    StableHlo.TRef.ternary main_call5.v12 main_call5.v14 main_call5.v4 main_call5.v15 select,
    StableHlo.nullary main_c_10 (constantI S_ 32 1#32),
    StableHlo.TRef.unary (.of main_c_10 : StableHlo.TRef sig ⟨S_, .i32⟩) main_call6.v0 (broadcastInDim S32896 ![] bcast_S_S32896),
    StableHlo.TRef.binary (.of main_v24 : StableHlo.TRef sig ⟨S32896, .i32⟩) main_call6.v0 main_call6.v1 Host.divsi,
    StableHlo.TRef.unary (.of main_v24 : StableHlo.TRef sig ⟨S32896, .i32⟩) main_call6.v2 signi,
    StableHlo.TRef.unary (.of main_c_10 : StableHlo.TRef sig ⟨S_, .i32⟩) main_call6.v3 signi,
    StableHlo.TRef.unary main_call6.v3 main_call6.v4 (broadcastInDim S32896 ![] bcast_S_S32896),
    StableHlo.TRef.binary main_call6.v2 main_call6.v4 main_call6.v5 (cmpi .ne),
    StableHlo.TRef.unary (.of main_c_10 : StableHlo.TRef sig ⟨S_, .i32⟩) main_call6.v6 (broadcastInDim S32896 ![] bcast_S_S32896),
    StableHlo.TRef.binary (.of main_v24 : StableHlo.TRef sig ⟨S32896, .i32⟩) main_call6.v6 main_call6.v7 Host.remsi,
    StableHlo.TRef.nullary main_call6.c (constantI S_ 32 0#32),
    StableHlo.TRef.unary main_call6.c main_call6.v8 (broadcastInDim S32896 ![] bcast_S_S32896),
    StableHlo.TRef.binary main_call6.v7 main_call6.v8 main_call6.v9 (cmpi .ne),
    StableHlo.TRef.binary main_call6.v5 main_call6.v9 main_call6.v10 andi,
    StableHlo.TRef.nullary main_call6.c_0 (constantI S_ 32 1#32),
    StableHlo.TRef.unary main_call6.c_0 main_call6.v11 (broadcastInDim S32896 ![] bcast_S_S32896),
    StableHlo.TRef.binary main_call6.v1 main_call6.v11 main_call6.v12 subi,
    StableHlo.TRef.ternary main_call6.v10 main_call6.v12 main_call6.v1 main_call6.call0.v0 select,
    StableHlo.nullary main_c_11 (constantI S_ 32 256#32),
    StableHlo.TRef.unary (.of main_c_11 : StableHlo.TRef sig ⟨S_, .i32⟩) main_call7.v0 id,
    StableHlo.TRef.nullary main_call7.c (constantI S_ 32 0#32),
    StableHlo.TRef.binary main_call7.v0 main_call7.c main_call7.v1 (cmpi .eq),
    StableHlo.TRef.nullary main_call7.c_0 (constantI S_ 32 1#32),
    StableHlo.TRef.ternary main_call7.v1 main_call7.c_0 main_call7.v0 main_call7.call0.v0 select,
    StableHlo.TRef.unary main_call7.call0.v0 main_call7.v3 (broadcastInDim S32896 ![] bcast_S_S32896),
    StableHlo.TRef.binary (.of main_v27 : StableHlo.TRef sig ⟨S32896, .i32⟩) main_call7.v3 main_call7.v4 Host.remsi,
    StableHlo.TRef.nullary main_call7.c_1 (constantI S_ 32 0#32),
    StableHlo.TRef.unary main_call7.c_1 main_call7.v5 (broadcastInDim S32896 ![] bcast_S_S32896),
    StableHlo.TRef.binary main_call7.v4 main_call7.v5 main_call7.v6 (cmpi .ne),
    StableHlo.TRef.nullary main_call7.c_2 (constantI S_ 32 0#32),
    StableHlo.TRef.unary main_call7.c_2 main_call7.v7 (broadcastInDim S32896 ![] bcast_S_S32896),
    StableHlo.TRef.binary main_call7.v4 main_call7.v7 main_call7.v8 (cmpi .slt),
    StableHlo.TRef.nullary main_call7.c_3 (constantI S_ 32 0#32),
    StableHlo.TRef.binary main_call7.call0.v0 main_call7.c_3 main_call7.v9 (cmpi .slt),
    StableHlo.TRef.unary main_call7.v9 main_call7.v10 (broadcastInDim S32896 ![] bcast_S_S32896),
    StableHlo.TRef.binary main_call7.v8 main_call7.v10 main_call7.v11 (cmpi .ne),
    StableHlo.TRef.binary main_call7.v11 main_call7.v6 main_call7.v12 andi,
    StableHlo.TRef.unary main_call7.call0.v0 main_call7.v13 (broadcastInDim S32896 ![] bcast_S_S32896),
    StableHlo.TRef.binary main_call7.v4 main_call7.v13 main_call7.v14 addi,
    StableHlo.TRef.ternary main_call7.v12 main_call7.v14 main_call7.v4 main_call7.v15 select,
    StableHlo.nullary main_c_12 (constantI S_ 32 0#32),
    StableHlo.unary main_c_12 main_v29 (broadcastInDim S32896 ![] bcast_S_S32896 : (⟨S_, .i32⟩ : BufTy).Contents (Elt F) → (⟨S32896, .i32⟩ : BufTy).Contents (Elt F)),
    StableHlo.binary main_v26 main_v29 main_v30 (cmpi .slt : (⟨S32896, .i32⟩ : BufTy).Contents (Elt F) → (⟨S32896, .i32⟩ : BufTy).Contents (Elt F) → (⟨S32896, .i1⟩ : BufTy).Contents (Elt F)),
    StableHlo.nullary main_c_13 (constantI S_ 32 256#32),
    StableHlo.unary main_c_13 main_v31 (broadcastInDim S32896 ![] bcast_S_S32896 : (⟨S_, .i32⟩ : BufTy).Contents (Elt F) → (⟨S32896, .i32⟩ : BufTy).Contents (Elt F)),
    StableHlo.binary main_v26 main_v31 main_v32 (addi : (⟨S32896, .i32⟩ : BufTy).Contents (Elt F) → (⟨S32896, .i32⟩ : BufTy).Contents (Elt F) → (⟨S32896, .i32⟩ : BufTy).Contents (Elt F)),
    StableHlo.ternary main_v30 main_v32 main_v26 main_v33 (select : (⟨S32896, .i1⟩ : BufTy).Contents (Elt F) → (⟨S32896, .i32⟩ : BufTy).Contents (Elt F) → (⟨S32896, .i32⟩ : BufTy).Contents (Elt F) → (⟨S32896, .i32⟩ : BufTy).Contents (Elt F)),
    StableHlo.nullary main_c_14 (constantI S_ 32 0#32),
    StableHlo.unary main_c_14 main_v34 (broadcastInDim S32896 ![] bcast_S_S32896 : (⟨S_, .i32⟩ : BufTy).Contents (Elt F) → (⟨S32896, .i32⟩ : BufTy).Contents (Elt F)),
    StableHlo.binary main_v28 main_v34 main_v35 (cmpi .slt : (⟨S32896, .i32⟩ : BufTy).Contents (Elt F) → (⟨S32896, .i32⟩ : BufTy).Contents (Elt F) → (⟨S32896, .i1⟩ : BufTy).Contents (Elt F)),
    StableHlo.nullary main_c_15 (constantI S_ 32 256#32),
    StableHlo.unary main_c_15 main_v36 (broadcastInDim S32896 ![] bcast_S_S32896 : (⟨S_, .i32⟩ : BufTy).Contents (Elt F) → (⟨S32896, .i32⟩ : BufTy).Contents (Elt F)),
    StableHlo.binary main_v28 main_v36 main_v37 (addi : (⟨S32896, .i32⟩ : BufTy).Contents (Elt F) → (⟨S32896, .i32⟩ : BufTy).Contents (Elt F) → (⟨S32896, .i32⟩ : BufTy).Contents (Elt F)),
    StableHlo.ternary main_v35 main_v37 main_v28 main_v38 (select : (⟨S32896, .i1⟩ : BufTy).Contents (Elt F) → (⟨S32896, .i32⟩ : BufTy).Contents (Elt F) → (⟨S32896, .i32⟩ : BufTy).Contents (Elt F) → (⟨S32896, .i32⟩ : BufTy).Contents (Elt F)),
    StableHlo.unary main_v33 main_v39 (broadcastInDim S32896x1 ![0] bcast_S32896_S32896x1_0 : (⟨S32896, .i32⟩ : BufTy).Contents (Elt F) → (⟨S32896x1, .i32⟩ : BufTy).Contents (Elt F)),
    StableHlo.unary main_v38 main_v40 (broadcastInDim S32896x1 ![0] bcast_S32896_S32896x1_0 : (⟨S32896, .i32⟩ : BufTy).Contents (Elt F) → (⟨S32896x1, .i32⟩ : BufTy).Contents (Elt F)),
    StableHlo.binary main_v39 main_v40 main_v41 ((fun a b => concatenate S32896x2 1 [⟨S32896x1, a⟩, ⟨S32896x1, b⟩] concatenates_S32896x1_S32896x1_S32896x2_d1) : (⟨S32896x1, .i32⟩ : BufTy).Contents (Elt F) → (⟨S32896x1, .i32⟩ : BufTy).Contents (Elt F) → (⟨S32896x2, .i32⟩ : BufTy).Contents (Elt F)),
    StableHlo.binary main_v8 main_v41 main_v42 ((fun x i => Host.gather gather_S64x256x256_S32896x2_S64x32896_0_12_n_n_12_1_6411 x i) : (⟨S64x256x256, .f32⟩ : BufTy).Contents (Elt F) → (⟨S32896x2, .i32⟩ : BufTy).Contents (Elt F) → (⟨S64x32896, .f32⟩ : BufTy).Contents (Elt F)) ]

set_option maxRecDepth 16384 in
set_option maxHeartbeats 4000000 in
/-- The entry function is that straight line: the helper functions unfolded at their calls and sequencing
    reassociated, both sides are one chain of the same steps. -/
theorem main_eq (c : Dev nD) : main (F := F) c = seq ops := by
  simp only [main, main_part0, main_part1, fn_triu.body, fn_cumsum_0.body, fn_cumsum.body, fn_clip.body, fn_cumsum_2.body, fn_cumsum_1.body, fn_where.body, fn_floor_divide.body, fn_where_3.body, fn_remainder.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches buffers of the TensorCore only. -/
theorem ops_sub : (ops : List (HloOp τ sig (Elt F))).Forall fun op => op.bufs ⊆ tcRefs τ sig :=
  ⟨nullary_bufs_sub .., binary_bufs_sub .., unary_bufs_sub .., nullary_bufs_sub .., unary_bufs_sub .., binary_bufs_sub ..,
    unary_bufs_sub .., binary_bufs_sub .., binary_bufs_sub .., nullary_bufs_sub .., unary_bufs_sub .., binary_bufs_sub ..,
    nullary_bufs_sub .., unary_bufs_sub .., nullary_bufs_sub .., nullary_bufs_sub .., unary_bufs_sub .., binary_bufs_sub ..,
    nullary_bufs_sub .., binary_bufs_sub .., nullary_bufs_sub .., unary_bufs_sub .., ternary_bufs_sub .., nullary_bufs_sub ..,
    unary_bufs_sub .., binary_bufs_sub .., reshape_bufs_sub .., unary_bufs_sub .., nullary_bufs_sub .., unary_bufs_sub ..,
    binary_bufs_sub .., nullary_bufs_sub .., unary_bufs_sub .., nullary_bufs_sub .., unary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., nullary_bufs_sub .., unary_bufs_sub .., binary_bufs_sub ..,
    unary_bufs_sub .., unary_bufs_sub .., unary_bufs_sub .., binary_bufs_sub .., unary_bufs_sub .., binary_bufs_sub ..,
    nullary_bufs_sub .., unary_bufs_sub .., binary_bufs_sub .., binary_bufs_sub .., nullary_bufs_sub .., unary_bufs_sub ..,
    binary_bufs_sub .., ternary_bufs_sub .., nullary_bufs_sub .., unary_bufs_sub .., nullary_bufs_sub .., binary_bufs_sub ..,
    nullary_bufs_sub .., ternary_bufs_sub .., unary_bufs_sub .., binary_bufs_sub .., nullary_bufs_sub .., unary_bufs_sub ..,
    binary_bufs_sub .., nullary_bufs_sub .., unary_bufs_sub .., binary_bufs_sub .., nullary_bufs_sub .., binary_bufs_sub ..,
    unary_bufs_sub .., binary_bufs_sub .., binary_bufs_sub .., unary_bufs_sub .., binary_bufs_sub .., ternary_bufs_sub ..,
    nullary_bufs_sub .., unary_bufs_sub .., binary_bufs_sub .., unary_bufs_sub .., unary_bufs_sub .., unary_bufs_sub ..,
    binary_bufs_sub .., unary_bufs_sub .., binary_bufs_sub .., nullary_bufs_sub .., unary_bufs_sub .., binary_bufs_sub ..,
    binary_bufs_sub .., nullary_bufs_sub .., unary_bufs_sub .., binary_bufs_sub .., ternary_bufs_sub .., nullary_bufs_sub ..,
    unary_bufs_sub .., nullary_bufs_sub .., binary_bufs_sub .., nullary_bufs_sub .., ternary_bufs_sub .., unary_bufs_sub ..,
    binary_bufs_sub .., nullary_bufs_sub .., unary_bufs_sub .., binary_bufs_sub .., nullary_bufs_sub .., unary_bufs_sub ..,
    binary_bufs_sub .., nullary_bufs_sub .., binary_bufs_sub .., unary_bufs_sub .., binary_bufs_sub .., binary_bufs_sub ..,
    unary_bufs_sub .., binary_bufs_sub .., ternary_bufs_sub .., nullary_bufs_sub .., unary_bufs_sub .., binary_bufs_sub ..,
    nullary_bufs_sub .., unary_bufs_sub .., binary_bufs_sub .., ternary_bufs_sub .., nullary_bufs_sub .., unary_bufs_sub ..,
    binary_bufs_sub .., nullary_bufs_sub .., unary_bufs_sub .., binary_bufs_sub .., ternary_bufs_sub .., unary_bufs_sub ..,
    unary_bufs_sub .., binary_bufs_sub .., binary_bufs_sub ..⟩

/-- No operation leaves its result undetermined. -/
theorem ops_fresh : ∀ op ∈ (ops : List (HloOp τ sig (Elt F))), op.fresh = ∅ :=
  List.forall_iff_forall_mem.mp
    (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (ops : List (HloOp τ sig (Elt F))).Forall fun op => op.fresh = ∅)

/-- For any float values, from any memory with zero counters: every weakly fair execution of the entry function
    terminates, and every final state has each buffer at the operations' fold over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-- Two lines run one after the other leave what their concatenation leaves. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- After a line that ends in a two-operand operation whose result buffer is neither operand: the result buffer
    holds the operation's function of what the two operand buffers hold after the line. -/
theorem after_snoc_binary (l : List (HloOp τ sig (Elt F))) (a b y : Ref sig .tc)
    (f : a.ty.Contents (Elt F) → b.ty.Contents (Elt F) → y.ty.Contents (Elt F)) (ha hb hy)
    (V : Valuation τ sig (Elt F)) (hay : a ≠ y) (hby : b ≠ y) :
    after (l ++ [binary a b y f ha hb hy]) V (y : DevRef τ sig)
      = f (after (l ++ [binary a b y f ha hb hy]) V (a : DevRef τ sig))
          (after (l ++ [binary a b y f ha hb hy]) V (b : DevRef τ sig)) := by
  simp only [after_append, after_cons, after_nil]
  rw [binary_result, binary_result_ne _ _ _ _ _ _ _ _ hay, binary_result_ne _ _ _ _ _ _ _ _ hby]

/-- The output is the gather of what the covariance buffer and the index-pair buffer hold after the whole line:
    the gather is the last operation and writes neither. -/
theorem result_eq (W : Valuation τ sig (Elt F)) :
    after ops W (main_v42 : DevRef τ sig)
      = Host.gather gather_S64x256x256_S32896x2_S64x32896_0_12_n_n_12_1_6411 (after ops W (main_v8 : DevRef τ sig)) (after ops W (main_v41 : DevRef τ sig)) :=
  after_snoc_binary (ops (F := F)).dropLast main_v8 main_v41 main_v42 _ _ _ _ W (by decide) (by decide)

/-- No operation writes the argument. -/
theorem arg0_eq (W : Valuation τ sig (Elt F)) : after ops W (main_arg0 : DevRef τ sig) = W (main_arg0 : DevRef τ sig) := by
  after_results_simp

/-- The covariance buffer holds the covariance term of the argument: only the first twelve operations write what
    it depends on. -/
theorem cov_eq (W : Valuation τ sig (Elt Ideal)) : after (ops (F := Ideal)) W (main_v8 : DevRef τ sig) = covRef (W (main_arg0 : DevRef τ sig)) := by
  after_results_simp
  rfl

end Cert.ReferenceIdeal.Hand

end
-- ==== Proof.KValue.lean ====
/-
  The region's output array after the run, as one function of the argument array.

  Point t of the grid is batch t: its input block is rows (t, ·, ·) of the argument array and its output block is
  rows (t, ·, ·) of the output array. The body's stored value at (0, d, e) is the covariance entry (d, e) of the
  4096×256 block it loaded (hypothesis `hpay`, proved separately from the body's arithmetic), so point t writes
  back block t of the array whose entry (b, d, e) is the covariance entry (d, e) of batch b. The 64 blocks tile the
  output array, hence the array ends holding exactly that function.
-/
import proofs.«151729_j47493748359314_1_alg».proof.Proof.KBody
import Idealize.ShloMosaic.Lib.Pipeline.Value
import Idealize.ShloMosaic.Lib.ValueIdx

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)
-- one batch's covariance entry (d, e) as a function of the batch's samples
variable (cov1 : (Fin 4096 → Fin 256 → EReal) → Fin 256 → Fin 256 → EReal)

theorem hz3 : (![0, 0, 0] : Fin 3 → Nat) = fun _ => 0 := funext fun a => by fin_cases a <;> rfl

/-- The output array: entry (b, d, e) is the covariance entry (d, e) of batch b of the argument array. -/
def covArr (a : S64x4096x256.Idx → EReal) : S64x256x256.Idx → EReal :=
  fun j => cov1 (fun n k => a (ix3 (j 0 : Fin 64) n k)) (j 1 : Fin 256) (j 2 : Fin 256)

theorem covArr_apply (a : S64x4096x256.Idx → EReal) (b : Fin 64) (d e : Fin 256) :
    covArr cov1 a (ix3 b d e) = cov1 (fun n k => a (ix3 b n k)) d e := rfl

/-- The body's stored value at any index of the output block, from its value at (0, d, e). -/
theorem pay_at (hpay : ∀ (x0 : Vec Ideal S1x4096x256 .f32) (d e : Fin 256),
      k0_pay1 (F := Ideal) x0 (ix3 (0 : Fin 1) d e) = cov1 (fun n k => x0 (ix3 (0 : Fin 1) n k)) d e)
    (x0 : Vec Ideal S1x4096x256 .f32) (j : S1x256x256.Idx) :
    k0_pay1 (F := Ideal) x0 j = cov1 (fun n k => x0 (ix3 (0 : Fin 1) n k)) (j 1 : Fin 256) (j 2 : Fin 256) := by
  obtain ⟨z, d, e, rfl⟩ : ∃ (z : Fin 1) (d e : Fin 256), j = ix3 z d e := ⟨j 0, j 1, j 2, eq_ix3 j⟩
  obtain rfl : z = 0 := Subsingleton.elim _ _
  exact hpay x0 d e

/-- The printed index maps, decided over the grid: both windows' block index at point t is (t, 0, 0). -/
theorem idx_facts : ∀ t : Fin cfg0.N, win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0 :=
  (by decide +kernel : ∀ t : Fin grid0.N, _)

/-- Element y of the input block at point t sits at (t, y 1, y 2) of the argument array. -/
theorem emb_in (t : Fin cfg0.N) (y : S1x4096x256.Idx) (i : S64x4096x256.Idx)
    (h0 : (i 0).val = t.val) (h1 : (i 1).val = (y 1).val) (h2 : (i 2).val = (y 2).val) :
    ((cfg0.win 0).blk t).view.emb y = i := by
  obtain ⟨e0, e1, e2, -, -, -⟩ := idx_facts t
  funext a; apply Fin.ext
  match a with
  | ⟨0, _⟩ => show win0_0.index t (0 : Fin 3) * 1 + 1 * (y 0).val = (i 0).val; have hy : (y 0).val < 1 := (y 0).isLt; omega
  | ⟨1, _⟩ => show win0_0.index t (1 : Fin 3) * 4096 + 1 * (y 1).val = (i 1).val; omega
  | ⟨2, _⟩ => show win0_0.index t (2 : Fin 3) * 256 + 1 * (y 2).val = (i 2).val; omega

/-- Element j of the output block at point t sits at (t, j 1, j 2) of the output array. -/
theorem emb_out (t : Fin cfg0.N) (j : S1x256x256.Idx) :
    ((((cfg0.win 1).blk t).view.emb j) 0).val = t.val ∧ ((((cfg0.win 1).blk t).view.emb j) 1).val = (j 1).val
      ∧ ((((cfg0.win 1).blk t).view.emb j) 2).val = (j 2).val := by
  obtain ⟨-, -, -, e0, e1, e2⟩ := idx_facts t
  refine ⟨?_, ?_, ?_⟩
  · show win0_1.index t (0 : Fin 3) * 1 + 1 * (j 0).val = t.val; have hy : (j 0).val < 1 := (j 0).isLt; omega
  · show win0_1.index t (1 : Fin 3) * 256 + 1 * (j 1).val = (j 1).val; omega
  · show win0_1.index t (2 : Fin 3) * 256 + 1 * (j 2).val = (j 2).val; omega

variable (hpay : ∀ (x0 : Vec Ideal S1x4096x256 .f32) (d e : Fin 256),
      k0_pay1 (F := Ideal) x0 (ix3 (0 : Fin 1) d e) = cov1 (fun n k => x0 (ix3 (0 : Fin 1) n k)) d e)

include hpay in
/-- What point t writes back is block t of the covariance array of the argument array as the region finds it. -/
theorem flushed_eq (c : Dev nD) (t : Fin cfg0.N) :
    (dats m 0 c).flushed 1 t = ((cfg0.win 1).blk t).view.read (Elt Ideal) (covArr cov1 (V m c main_arg0)) := by
  show (cfg0.win 1).cut (grid0.coords t) ((dats m 0 c).after 1 t) = _
  rw [after_out]
  unfold outBlock
  rw [View.canon_unit_zero hz3]
  simp only [View.ld_unit_zero (S := S1x4096x256) hz3]
  funext j
  refine (pay_at cov1 hpay (iblk m c 0 t) j).trans ?_
  obtain ⟨o0, o1, o2⟩ := emb_out t j
  show cov1 (fun n k => V m c main_arg0 (((cfg0.win 0).blk t).view.emb (ix3 (0 : Fin 1) n k))) (j 1 : Fin 256) (j 2 : Fin 256)
    = cov1 (fun n k => V m c main_arg0 (ix3 ((((cfg0.win 1).blk t).view.emb j) 0 : Fin 64) n k))
        ((((cfg0.win 1).blk t).view.emb j) 1 : Fin 256) ((((cfg0.win 1).blk t).view.emb j) 2 : Fin 256)
  have h1 : ((((cfg0.win 1).blk t).view.emb j) 1 : Fin 256) = (j 1 : Fin 256) := Fin.ext o1
  have h2 : ((((cfg0.win 1).blk t).view.emb j) 2 : Fin 256) = (j 2 : Fin 256) := Fin.ext o2
  rw [h1, h2]
  refine congrArg (fun f => cov1 f (j 1 : Fin 256) (j 2 : Fin 256)) (funext fun n => funext fun k => ?_)
  exact congrArg (V m c main_arg0) (emb_in t (ix3 (0 : Fin 1) n k) _ o0 rfl rfl)

/-- An index of the output array is in point t's block iff each coordinate is in the block's range on its axis. -/
theorem mem_blk (t : Fin cfg0.N) (i : S64x256x256.Idx) :
    i ∈ ((cfg0.win 1).blk t).view.set ↔ ∀ a : Fin 3, win0_1.index t a * S1x256x256.size a ≤ (i a).val ∧ (i a).val < win0_1.index t a * S1x256x256.size a + S1x256x256.size a := by
  show i ∈ ((View.whole main_v0).slice (win0_1.rect t)).set ↔ _
  rw [View.set_slice_whole, Rect.mem_set_unit]
  exact Iff.rfl

/-- Every index of the output array lies in the block of the point that is its batch. -/
theorem cover (i : S64x256x256.Idx) : ∃ t : Fin cfg0.N, (cfg0.win 1).flush t = true ∧ i ∈ ((cfg0.win 1).blk t).view.set := by
  have hN : cfg0.N = 64 := N_0
  have hi0 : (i 0).val < 64 := (i 0).isLt
  have hi1 : (i 1).val < 256 := (i 1).isLt
  have hi2 : (i 2).val < 256 := (i 2).isLt
  refine ⟨⟨(i 0).val, by omega⟩, flush0_1 _, ?_⟩
  rw [mem_blk]
  obtain ⟨-, -, -, e0, e1, e2⟩ := idx_facts ⟨(i 0).val, by omega⟩
  intro a
  match a with
  | ⟨0, _⟩ => show win0_1.index _ (0 : Fin 3) * 1 ≤ (i 0).val ∧ (i 0).val < win0_1.index _ (0 : Fin 3) * 1 + 1; simp only at e0; omega
  | ⟨1, _⟩ => show win0_1.index _ (1 : Fin 3) * 256 ≤ (i 1).val ∧ (i 1).val < win0_1.index _ (1 : Fin 3) * 256 + 256; omega
  | ⟨2, _⟩ => show win0_1.index _ (2 : Fin 3) * 256 ≤ (i 2).val ∧ (i 2).val < win0_1.index _ (2 : Fin 3) * 256 + 256; omega

include hpay in
/-- The output array after the region: the covariance array of the argument array as launched. -/
theorem final (c : Dev nD) : (dats m 0 c).arrAt 1 cfg0.N = covArr cov1 (m ((c : Thread nD τ).loc main_arg0)) :=
  (dats m 0 c).arrAt_eq_of_cover 1 (covArr cov1 (V m c main_arg0)) (fun t _ => flushed_eq m cov1 hpay c t) cover

end Cert.KernelIdeal.HandValue

end
-- ==== Proof.CovSpec.lean ====
/-
  The population covariance of one batch of 4096 samples of a 256-vector, on the extended reals:
  mean k = (sum over n of y n k) / 4096 and cov d e = (sum over n of (y n d - mean d) * (y n e - mean e)) / 4096.
  Division by 4096 is, for every extended real, the product with 2^-12; that is the only law the two
  arrangements (one scales by multiplying with 2^-12, the other by dividing by 4096) need.
-/
import Idealize.ShloMosaic.PureOps.Ideal
import Idealize.ShloMosaic.PureOps.Ideal.Laws
import Idealize.ShloMosaic.Lib.ValueIdx

noncomputable section

open scoped BigOperators

namespace Cert.CovSpec

open Idealize.ShloMosaic

/-- The pattern 0x45800000 denotes the real 4096. -/
theorem ofBits_4096 : Ideal.ofBits .f32 0x45800000#32 = ((4096 : ℝ) : EReal) := by
  simp [Ideal.ofBits, Ideal.ieee, -EReal.coe_mul]; norm_num

/-- The pattern 0x39800000 denotes the real 2^-12 = 1/4096. -/
theorem ofBits_inv4096 : Ideal.ofBits .f32 0x39800000#32 = ((1 / 4096 : ℝ) : EReal) := by
  simp [Ideal.ofBits, Ideal.ieee, -EReal.coe_mul]; norm_num

/-- The mean of column k over the 4096 samples. -/
def mean1 (y : Fin 4096 → Fin 256 → EReal) (k : Fin 256) : EReal :=
  Ideal.div (∑ n : Fin 4096, y n k) (Ideal.ofBits .f32 0x45800000#32)

/-- The covariance of columns d and e over the 4096 samples: the mean of the products of the centred samples. -/
def cov1 (y : Fin 4096 → Fin 256 → EReal) (d e : Fin 256) : EReal :=
  Ideal.div (∑ n : Fin 4096, (y n d - mean1 y d) * (y n e - mean1 y e)) (Ideal.ofBits .f32 0x45800000#32)

/-- Multiplying by 2^-12 is dividing by 4096, at the infinities too. -/
theorem mul_inv4096 (x : EReal) :
    x * Ideal.ofBits .f32 0x39800000#32 = Ideal.div x (Ideal.ofBits .f32 0x45800000#32) := by
  rw [ofBits_4096, ofBits_inv4096, Ideal.div_coe (by norm_num)]

end Cert.CovSpec

end
-- ==== Proof.KernelPay.lean ====
/-
  The stored block of the covariance kernel, read at an entry. The block of one batch is x0 : [1, 4096, 256];
  its 4096 rows are summed along the sample axis and divided by 4096 (the column means), the means are taken off every
  row, the centred array is contracted with itself along the sample axis, and every entry is scaled by 2^-12.
  At the extended reals the entry (d, e) is the covariance of columns d and e of that batch.
-/
import proofs.«151729_j47493748359314_1_alg».proof.Proof.Gen.KernelIdeal.Skeleton
import proofs.«151729_j47493748359314_1_alg».proof.Proof.CovSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayValue

open Idealize.ShloMosaic Idealize.ShloMosaic.ValueIdx Cert.KernelIdeal Cert.KernelIdeal.Gen

/-- The sum of a [4096, 256] array along its rows, at column k: the sum over the 4096 rows of the entry (n, k). -/
theorem colsum_apply (v : FVec Ideal S4096x256 .f32) (h : S4096x256.Reduces [0] S256) (hφ : FKind.Formats .f32)
    (hacc : (0x00000000#32 : BitVec FTy.f32.bits) = FKind.add.neutral .f32 hφ) (k : Fin 256) :
    multiReduction .add [0] S256 v 0x00000000#32 h hφ hacc (ix1 k) = ∑ n : Fin 4096, v (ix2 n k) := by
  refine (Ideal.multiReduction_add_single v 0x00000000#32 h hφ hacc (ix1 k)).trans ?_
  refine Finset.sum_congr rfl fun n _ => congrArg v ?_
  funext a
  refine Fin.ext ?_
  match a with
  | ⟨0, _⟩ => rfl
  | ⟨1, _⟩ => rfl

/-- The contraction of two [4096, 256] arrays along their rows into zeros, at (d, e): the sum over the 4096 rows. -/
theorem gram_apply (A B : FVec Ideal S4096x256 .f32) (prec : Option ContractPrecision) (d e : Fin 256) :
    matmul dot_S4096x256_S4096x256_S256x256_0_0_1_1_n_n prec A B (constant (F := Ideal) S256x256 .f32 0x00000000#32) (ix2 d e)
      = ∑ n : Fin 4096, A (ix2 n d) * B (ix2 n e) := by
  refine (Ideal.matmul_constant_zero_apply dot_S4096x256_S4096x256_S256x256_0_0_1_1_n_n prec A B (ix2 d e)).trans ?_
  rw [← Equiv.sum_comp (contrEquiv1 dot_S4096x256_S4096x256_S256x256_0_0_1_1_n_n 4096 rfl rfl).symm]
  refine Finset.sum_congr rfl fun n _ => ?_
  have hn := contrEquiv1_symm_val dot_S4096x256_S4096x256_S256x256_0_0_1_1_n_n 4096 rfl rfl n
  have el : dot_S4096x256_S4096x256_S256x256_0_0_1_1_n_n.lhsIdx (ix2 d e)
      ((contrEquiv1 dot_S4096x256_S4096x256_S256x256_0_0_1_1_n_n 4096 rfl rfl).symm n) = ix2 n d := funext fun a => Fin.ext (by
    match a with
    | ⟨0, _⟩ => exact (DotDims.lhsIdx_val_of_single _ (cl := (0 : Fin 2)) rfl _ _).trans hn
    | ⟨1, _⟩ => rfl)
  have er : dot_S4096x256_S4096x256_S256x256_0_0_1_1_n_n.rhsIdx (ix2 d e)
      ((contrEquiv1 dot_S4096x256_S4096x256_S256x256_0_0_1_1_n_n 4096 rfl rfl).symm n) = ix2 n e := funext fun a => Fin.ext (by
    match a with
    | ⟨0, _⟩ => exact (DotDims.rhsIdx_val_of_single _ (cr := (0 : Fin 2)) rfl _ _).trans hn
    | ⟨1, _⟩ => rfl)
  rw [el, er]

/-- The column means of a [4096, 256] array (its column sums over c), kept as one row and repeated over the 4096 rows:
    at (n, k) the mean of column k. -/
theorem meanRows_apply (v : FVec Ideal S4096x256 .f32) (h : S4096x256.Reduces [0] S256) (hφ : FKind.Formats .f32)
    (hacc : (0x00000000#32 : BitVec FTy.f32.bits) = FKind.add.neutral .f32 hφ) (hc : S256.ShapeCasts S1x256)
    (hb : S1x256.Broadcasts S4096x256) (c : Ideal .f32) (n : Fin 4096) (k : Fin 256) :
    broadcastTo S4096x256 (divf (shapeCast S1x256 (multiReduction .add [0] S256 v 0x00000000#32 h hφ hacc) hc) (broadcast S1x256 c)) hb (ix2 n k)
      = Ideal.div (∑ n' : Fin 4096, v (ix2 n' k)) c := by
  refine (broadcastTo_1b_ab_apply _ hb n k).trans ?_
  refine (divf_apply _ _ _).trans ?_
  refine congrArg (fun t => Ideal.div t c) ?_
  exact (shapeCast_a_1a_apply _ hc (0 : Fin 1) k).trans (colsum_apply v h hφ hacc k)

/-- The centred array at (n, k): the entry less its column's mean. -/
theorem centred_apply (v : FVec Ideal S4096x256 .f32) (h : S4096x256.Reduces [0] S256) (hφ : FKind.Formats .f32)
    (hacc : (0x00000000#32 : BitVec FTy.f32.bits) = FKind.add.neutral .f32 hφ) (hc : S256.ShapeCasts S1x256)
    (hb : S1x256.Broadcasts S4096x256) (c : Ideal .f32) (n : Fin 4096) (k : Fin 256) :
    subf v (broadcastTo S4096x256 (divf (shapeCast S1x256 (multiReduction .add [0] S256 v 0x00000000#32 h hφ hacc) hc) (broadcast S1x256 c)) hb) (ix2 n k)
      = v (ix2 n k) - Ideal.div (∑ n' : Fin 4096, v (ix2 n' k)) c :=
  (subf_apply _ _ _).trans (congrArg (fun t => v (ix2 n k) - t) (meanRows_apply v h hφ hacc hc hb c n k))

/-- The scaled contraction of the centred array with itself, at (d, e): the covariance of columns d and e. -/
theorem core_apply (v : FVec Ideal S4096x256 .f32) (h : S4096x256.Reduces [0] S256) (hφ : FKind.Formats .f32)
    (hacc : (0x00000000#32 : BitVec FTy.f32.bits) = FKind.add.neutral .f32 hφ) (hc : S256.ShapeCasts S1x256)
    (hb : S1x256.Broadcasts S4096x256) (prec : Option ContractPrecision) (d e : Fin 256) :
    mulf (matmul dot_S4096x256_S4096x256_S256x256_0_0_1_1_n_n prec
        (subf v (broadcastTo S4096x256 (divf (shapeCast S1x256 (multiReduction .add [0] S256 v 0x00000000#32 h hφ hacc) hc)
          (broadcast S1x256 (Ideal.ofBits .f32 0x45800000#32))) hb))
        (subf v (broadcastTo S4096x256 (divf (shapeCast S1x256 (multiReduction .add [0] S256 v 0x00000000#32 h hφ hacc) hc)
          (broadcast S1x256 (Ideal.ofBits .f32 0x45800000#32))) hb))
        (constant (F := Ideal) S256x256 .f32 0x00000000#32))
      (broadcast S256x256 (Ideal.ofBits .f32 0x39800000#32)) (ix2 d e)
      = Cert.CovSpec.cov1 (fun n k => v (ix2 n k)) d e := by
  refine (mulf_apply _ _ _).trans ?_
  refine (congrArg (fun t => t * Ideal.ofBits .f32 0x39800000#32) (gram_apply _ _ prec d e)).trans ?_
  refine (Cert.CovSpec.mul_inv4096 _).trans ?_
  refine congrArg (fun t => Ideal.div t (Ideal.ofBits .f32 0x45800000#32)) (Finset.sum_congr rfl fun n _ => ?_)
  exact congrArg₂ (fun a b => a * b) (centred_apply v h hφ hacc hc hb _ n d) (centred_apply v h hφ hacc hc hb _ n e)

/-- The stored block at (0, d, e) is the covariance of columns d and e of the batch's 4096 samples. -/
theorem pay_apply (x0 : Vec Ideal S1x4096x256 .f32) (d e : Fin 256) :
    k0_pay1 (F := Ideal) x0 (ix3 (0 : Fin 1) d e) = Cert.CovSpec.cov1 (fun n k => x0 (ix3 (0 : Fin 1) n k)) d e := by
  unfold k0_pay1
  refine (shapeCast_ab_1ab_apply _ _ (0 : Fin 1) d e).trans ?_
  refine (core_apply (shapeCast S4096x256 x0 Facts₀.shapeCasts_S1x4096x256_S4096x256) _ _ _ _ _ _ d e).trans ?_
  exact congrArg (fun y => Cert.CovSpec.cov1 y d e)
    (funext fun n => funext fun k => shapeCast_1ab_ab_apply x0 _ n k)

end Cert.KernelIdeal.PayValue

end
-- ==== Proof.RefCov.lean ====
/-
  The reference's batched covariance read at an entry. For batch b the column sums along the sample axis (from 0)
  are divided by 4096 (the means, kept with a unit middle axis), the means are taken off every sample, the centred
  array is contracted with itself along the sample axis batch by batch, and every entry is divided by 4096.
  At the extended reals the entry (b, d, e) is the covariance of columns d and e of batch b.
-/
import proofs.«151729_j47493748359314_1_alg».proof.Proof.RefCovTerm
import proofs.«151729_j47493748359314_1_alg».proof.Proof.CovSpec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.ReferenceIdeal.Hand

open Idealize.ShloMosaic Idealize.ShloMosaic.ValueIdx Cert.ReferenceIdeal Cert.ReferenceIdeal.Gen

/-- The sum of a [64, 4096, 256] array along its middle axis from 0, at (b, k): the sum over the 4096 samples. -/
theorem sampleSum_apply (x : FVec Ideal S64x4096x256 .f32) (h' : S64x4096x256.ReducesTo [1] S64x256) (hu : 0 < S_.numel)
    (b : Fin 64) (k : Fin 256) :
    Host.reduceAdd (F := Ideal) x (constant (F := Ideal) S_ .f32 0x00000000#32) h' hu (ix2 b k)
      = ∑ n : Fin 4096, x (ix3 b n k) := by
  have h : S64x4096x256.Reduces [1] S64x256 := by decide
  refine (Ideal.hostReduceAdd_single h' h x _ (ix2 b k)).trans ?_
  refine (congrArg (fun t => t + _) Ideal.ofBits_zero_f32).trans ?_
  refine (zero_add _).trans ?_
  refine Finset.sum_congr rfl fun n _ => congrArg x ?_
  funext a
  refine Fin.ext ?_
  match a with
  | ⟨0, _⟩ => rfl
  | ⟨1, _⟩ => rfl
  | ⟨2, _⟩ => rfl

/-- The means at (b, u, k), u the one coordinate of the unit axis: the mean of column k of batch b. -/
theorem meanRef_apply (x : FVec Ideal S64x4096x256 .f32) (b : Fin 64) (u : Fin 1) (k : Fin 256) :
    meanRef x (ix3 b u k) = Cert.CovSpec.mean1 (fun n k => x (ix3 b n k)) k := by
  unfold meanRef
  refine congrArg (fun t => Ideal.div t (Ideal.ofBits .f32 0x45800000#32)) ?_
  refine (broadcastInDim_apply _ _ _ (ix3 b u k) (ix2 b k) fun a => ?_).trans (sampleSum_apply x _ _ b k)
  match a with
  | ⟨0, _⟩ => rfl
  | ⟨1, _⟩ => rfl

/-- The centred samples at (b, n, k). -/
theorem centredRef_apply (x : FVec Ideal S64x4096x256 .f32) (b : Fin 64) (n : Fin 4096) (k : Fin 256) :
    centredRef x (ix3 b n k) = x (ix3 b n k) - Cert.CovSpec.mean1 (fun n k => x (ix3 b n k)) k := by
  unfold centredRef
  refine (subf_apply _ _ _).trans (congrArg (fun t => x (ix3 b n k) - t) ?_)
  refine (broadcastInDim_apply _ _ _ (ix3 b n k) (ix3 b (0 : Fin 1) k) fun a => ?_).trans (meanRef_apply x b 0 k)
  match a with
  | ⟨0, _⟩ => rfl
  | ⟨1, _⟩ => rfl
  | ⟨2, _⟩ => rfl

/-- The batched contraction of two [64, 4096, 256] arrays along their middle axes, at (b, d, e): the sum over the 4096 samples. -/
theorem gramRef_apply (A B : FVec Ideal S64x4096x256 .f32) (prec : Option ContractPrecision) (b : Fin 64) (d e : Fin 256) :
    Host.dotGeneral dot_S64x4096x256_S64x4096x256_S64x256x256_1_1_2_2_0_0 prec A B (ix3 b d e)
      = ∑ n : Fin 4096, A (ix3 b n d) * B (ix3 b n e) := by
  refine (Ideal.dotGeneral_apply dot_S64x4096x256_S64x4096x256_S64x256x256_1_1_2_2_0_0 prec .single A B (ix3 b d e)).trans ?_
  rw [← Equiv.sum_comp (contrEquiv1 dot_S64x4096x256_S64x4096x256_S64x256x256_1_1_2_2_0_0 4096 rfl rfl).symm]
  refine Finset.sum_congr rfl fun n _ => ?_
  have hn := contrEquiv1_symm_val dot_S64x4096x256_S64x4096x256_S64x256x256_1_1_2_2_0_0 4096 rfl rfl n
  have el : dot_S64x4096x256_S64x4096x256_S64x256x256_1_1_2_2_0_0.lhsIdx (ix3 b d e)
      ((contrEquiv1 dot_S64x4096x256_S64x4096x256_S64x256x256_1_1_2_2_0_0 4096 rfl rfl).symm n) = ix3 b n d := funext fun a => Fin.ext (by
    match a with
    | ⟨0, _⟩ => rfl
    | ⟨1, _⟩ => exact (DotDims.lhsIdx_val_of_single _ (cl := (1 : Fin 3)) rfl _ _).trans hn
    | ⟨2, _⟩ => rfl)
  have er : dot_S64x4096x256_S64x4096x256_S64x256x256_1_1_2_2_0_0.rhsIdx (ix3 b d e)
      ((contrEquiv1 dot_S64x4096x256_S64x4096x256_S64x256x256_1_1_2_2_0_0 4096 rfl rfl).symm n) = ix3 b n e := funext fun a => Fin.ext (by
    match a with
    | ⟨0, _⟩ => rfl
    | ⟨1, _⟩ => exact (DotDims.rhsIdx_val_of_single _ (cr := (1 : Fin 3)) rfl _ _).trans hn
    | ⟨2, _⟩ => rfl)
  rw [el, er]

/-- The reference's covariance at (b, d, e) is the covariance of columns d and e of batch b's 4096 samples. -/
theorem covRef_apply (x : FVec Ideal S64x4096x256 .f32) (b : Fin 64) (d e : Fin 256) :
    covRef x (ix3 b d e) = Cert.CovSpec.cov1 (fun n k => x (ix3 b n k)) d e := by
  unfold covRef
  refine congrArg (fun t => Ideal.div t (Ideal.ofBits .f32 0x45800000#32)) ?_
  refine (gramRef_apply _ _ none b d e).trans (Finset.sum_congr rfl fun n _ => ?_)
  exact congrArg₂ (fun a b => a * b) (centredRef_apply x b n d) (centredRef_apply x b n e)

end Cert.ReferenceIdeal.Hand

end
-- ==== Proof.IdxEq.lean ====
import proofs.«151729_j47493748359314_1_alg».proof.Proof.KTail
import proofs.«151729_j47493748359314_1_alg».proof.Proof.RefRun
import Idealize.ShloMosaic.PureOps.Ideal

/-!
# The two programs compute the same index table

Both programs find the positions of the upper-triangular entries by the same operations in the same order: a mask
of ones above the diagonal, a running count of the flattened mask, a scatter of ones at the counts, a second
running count, and the split of each position into a row and a column by floor division and remainder by 256. No
operand of these lines is an input: every leaf is a constant or an iota. So the table the program with the kernel
holds before its gather is the table the reference holds before its own, whatever the two launch contents are.
-/

set_option pp.maxSteps 5000
set_option pp.deepTerms false
set_option maxRecDepth 16384

noncomputable section

namespace Cert.Proof.Idx

open Idealize.ShloMosaic Idealize.ShloMosaic.TcCoe Idealize.SL.Sem Idealize.ShloMosaic.StableHlo

set_option maxHeartbeats 8000000 in
theorem idx_eq (W : Valuation Cert.KernelIdeal.τ Cert.KernelIdeal.sig (Elt Ideal)) (W' : Valuation Cert.ReferenceIdeal.τ Cert.ReferenceIdeal.sig (Elt Ideal)) :
    (after (Cert.KernelIdeal.Tail.opss (F := Ideal)).flatten W (Cert.KernelIdeal.main_v33 : DevRef Cert.KernelIdeal.τ Cert.KernelIdeal.sig) : Vec Ideal ⟨2, ![32896, 2]⟩ .i32)
      = after (Cert.ReferenceIdeal.Hand.ops (F := Ideal)) W' (Cert.ReferenceIdeal.main_v41 : DevRef Cert.ReferenceIdeal.τ Cert.ReferenceIdeal.sig) := by
  simp only [Cert.KernelIdeal.Tail.opss, List.flatten_cons, List.flatten_nil, List.append_nil, List.cons_append, List.nil_append,
    Cert.KernelIdeal.Gen.hostOps1, Cert.KernelIdeal.Gen.hostOps1_1, Cert.KernelIdeal.Gen.hostOps1_2, Cert.KernelIdeal.Gen.hostOps1_3, Cert.KernelIdeal.Gen.hostOps1_4, Cert.KernelIdeal.Gen.hostOps1_5, Cert.KernelIdeal.Gen.hostOps1_6, Cert.KernelIdeal.Gen.hostOps1_7, Cert.KernelIdeal.Gen.hostOps1_8, Cert.KernelIdeal.Gen.hostOps1_9, Cert.KernelIdeal.Gen.hostOps1_10, Cert.KernelIdeal.Gen.hostOps1_11, Cert.KernelIdeal.Gen.hostOps1_12, Cert.KernelIdeal.Gen.hostOps1_13, Cert.KernelIdeal.Gen.hostOps1_14, Cert.KernelIdeal.Gen.hostOps1_15, Cert.KernelIdeal.Gen.hostOps1_16, Cert.ReferenceIdeal.Hand.ops]
  first | after_results_simp | fail "after_results_simp failed"
  first | rfl | fail "not rfl"

end Cert.Proof.Idx

end
-- ==== Proof.Bridge.lean ====
/-
  The two programs' results are one array.

  The kernel program's result is the gather, at the upper-triangular index table its host lines compute, of the
  region's output array, which holds for every batch the covariance of the batch's samples. The reference's result
  is the gather, at the index table its own lines compute, of its covariance stage. The two covariance arrays are
  the same function of the argument array entry by entry; the two index tables are the same composed term of
  constants; so the gathers agree.
-/
import proofs.«151729_j47493748359314_1_alg».proof.Proof.KFrame
import proofs.«151729_j47493748359314_1_alg».proof.Proof.KValue
import proofs.«151729_j47493748359314_1_alg».proof.Proof.KernelPay
import proofs.«151729_j47493748359314_1_alg».proof.Proof.RefCov
import proofs.«151729_j47493748359314_1_alg».proof.Proof.RefRun
import proofs.«151729_j47493748359314_1_alg».proof.Proof.IdxEq

set_option maxRecDepth 16384

noncomputable section

namespace Cert.Proof.Bridge

open Idealize.ShloMosaic Idealize.ShloMosaic.TcCoe Idealize.ShloMosaic.ValueIdx Idealize.SL.Sem Idealize.ShloMosaic.StableHlo

/-- The reference's covariance stage of an argument array is the kernel program's covariance array of the same array. -/
theorem cov_same (x : (⟨3, ![64, 4096, 256]⟩ : Shape).Idx → EReal) :
    Cert.ReferenceIdeal.Hand.covRef x = Cert.KernelIdeal.HandValue.covArr Cert.CovSpec.cov1 x := by
  funext j
  obtain ⟨b, d, e, rfl⟩ : ∃ (b : Fin 64) (d e : Fin 256), j = ix3 b d e := ⟨j 0, j 1, j 2, eq_ix3 j⟩
  rw [Cert.ReferenceIdeal.Hand.covRef_apply, Cert.KernelIdeal.HandValue.covArr_apply]

/-- The reference's result buffer after its run is the kernel program's result after its run, when the two argument
    arrays agree. -/
theorem result_same (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (hagree : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) :
    after (Cert.ReferenceIdeal.Hand.ops (F := Ideal)) (launchContents m' c) (Cert.ReferenceIdeal.main_v42 : DevRef Cert.ReferenceIdeal.τ Cert.ReferenceIdeal.sig)
      = Host.gather Cert.KernelIdeal.gather_S64x256x256_S32896x2_S64x32896_0_12_n_n_12_1_6411
          ((Cert.KernelIdeal.Hand.dats m 0 c).arrAt 1 Cert.KernelIdeal.cfg0.N)
          (after (Cert.KernelIdeal.Tail.opss (F := Ideal)).flatten
            (Pipeline.withArrays (Cert.KernelIdeal.cfgs 0).spec c (Cert.KernelIdeal.Hand.V0 m c)
              fun w => (Cert.KernelIdeal.Hand.dats m 0 c).arrAt w (Cert.KernelIdeal.cfgs 0).N)
            (Cert.KernelIdeal.main_v33 : DevRef Cert.KernelIdeal.τ Cert.KernelIdeal.sig)) := by
  rw [Cert.ReferenceIdeal.Hand.result_eq, Cert.ReferenceIdeal.Hand.cov_eq,
    Cert.KernelIdeal.HandValue.final m Cert.CovSpec.cov1 Cert.KernelIdeal.PayValue.pay_apply c,
    Cert.Proof.Idx.idx_eq _ (launchContents m' c)]
  show Host.gather _ (Cert.ReferenceIdeal.Hand.covRef (m' ((c.tc : Thread Cert.ReferenceIdeal.nD Cert.ReferenceIdeal.τ).loc Cert.ReferenceIdeal.main_arg0))) _ = _
  rw [hagree, cov_same]
  rfl

end Cert.Proof.Bridge

end
-- ==== Proof.lean ====
/-
  The certificate of the batched covariance kernel against its jnp reference.

  Both programs compute, for each of 64 batches of 4096 samples in 256 columns, the population covariance
  cov[b] = xcᵀ xc / 4096 with xc the samples less their column means, and return its upper-triangular entries
  (row-major), gathered at an index table computed by host operations from constants.

  * The kernel program runs the covariance in one region of 64 grid points, one batch per point; its frame (at the
    word level and at the ideal level, one text at any float instance) is the pipeline library's frame run around the
    region, continued through the host lines that follow it.
  * The reference is host operations only; its run is the fold of its operation list over the launch contents.
  * No operation was rewritten by the idealization, so nothing is owed for it.
  * At the ideal level both covariance arrays are the same function of the argument array, entry by entry: the same
    sums over the samples, the kernel's product with 2⁻¹² against the reference's quotient by 4096, equal on every
    extended real; the two index tables are one composed term; hence equal results.
-/
import proofs.«151729_j47493748359314_1_alg».proof.Defs
import proofs.«151729_j47493748359314_1_alg».proof.Proof.Gen.Kernel
import proofs.«151729_j47493748359314_1_alg».proof.Proof.Gen.KernelIdeal
import proofs.«151729_j47493748359314_1_alg».proof.Proof.Gen.ReferenceIdeal
import proofs.«151729_j47493748359314_1_alg».proof.Proof.Gen.Pre_finite_inputs
import proofs.«151729_j47493748359314_1_alg».proof.Proof.KFrame
import proofs.«151729_j47493748359314_1_alg».proof.Proof.KFrameB
import proofs.«151729_j47493748359314_1_alg».proof.Proof.RefRun
import proofs.«151729_j47493748359314_1_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

/-- The printed kernel program runs to the end, faults nowhere and leaves its argument array unchanged. -/
theorem frame_k : Cert.frame_Kernel := fun m ρ _ => Cert.Kernel.Hand.frame m ρ

/-- The same of its idealization. -/
theorem frame_ki : Cert.frame_KernelIdeal := fun m ρ _ => Cert.KernelIdeal.Hand.frame m ρ

/-- The reference runs to the end and leaves its argument array unchanged: no operation of its list writes it. -/
theorem frame_ri : Cert.frame_ReferenceIdeal := fun m ρ _ =>
  (θ_run Cert.ReferenceIdeal.defs _ _).mono
    (fun _ h c => (h c Cert.ReferenceIdeal.main_arg0).trans (Cert.ReferenceIdeal.Hand.arg0_eq _))
    (Cert.ReferenceIdeal.Hand.run_main (F := Ideal) m ρ)

/-- The idealization rewrote no operation. -/
theorem preserves : Cert.preserves_Kernel_KernelIdeal := trivial

/-- From memories agreeing on the argument array both idealized programs end with the same result array: the gather
    of the batched covariance at the upper-triangular index table. -/
theorem algebraic : Cert.algebraic_KernelIdeal_ReferenceIdeal := by
  intro m ρ m' ρ' _ hagree
  refine ⟨fun c => Host.gather Cert.KernelIdeal.gather_S64x256x256_S32896x2_S64x32896_0_12_n_n_12_1_6411
      ((Cert.KernelIdeal.Hand.dats m 0 c).arrAt 1 Cert.KernelIdeal.cfg0.N)
      (after (Cert.KernelIdeal.Tail.opss (F := Ideal)).flatten
        (Pipeline.withArrays (Cert.KernelIdeal.cfgs 0).spec c (Cert.KernelIdeal.Hand.V0 m c)
          fun w => (Cert.KernelIdeal.Hand.dats m 0 c).arrAt w (Cert.KernelIdeal.cfgs 0).N)
        (Cert.KernelIdeal.main_v33 : DevRef Cert.KernelIdeal.τ Cert.KernelIdeal.sig)), ?_, ?_⟩
  · exact (θ_run Cert.KernelIdeal.defs _ _).mono
      (fun r h c => ⟨Cert.KernelIdeal.Hand.result_post m r h c, Cert.KernelIdeal.Hand.kept_arg0 m r h c⟩)
      (Cert.KernelIdeal.Hand.run_main m ρ)
  · exact (θ_run Cert.ReferenceIdeal.defs _ _).mono
      (fun r h c => ⟨(h c Cert.ReferenceIdeal.main_v42).trans (Cert.Proof.Bridge.result_same m m' c (hagree c)),
        (h c Cert.ReferenceIdeal.main_arg0).trans (Cert.ReferenceIdeal.Hand.arg0_eq _)⟩)
      (Cert.ReferenceIdeal.Hand.run_main (F := Ideal) m' ρ')

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
